-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S4096x32x128 : Shape := ⟨3, ![4096, 32, 128]⟩
abbrev S4096x32 : Shape := ⟨2, ![4096, 32]⟩
abbrev S4096x32x1 : Shape := ⟨3, ![4096, 32, 1]⟩
abbrev S8192x4x8 : Shape := ⟨3, ![8192, 4, 8]⟩
abbrev S4x8192x8 : Shape := ⟨3, ![4, 8192, 8]⟩
abbrev S4096x4x8 : Shape := ⟨3, ![4096, 4, 8]⟩
abbrev S4x4096x8 : Shape := ⟨3, ![4, 4096, 8]⟩
abbrev S2048x1024 : Shape := ⟨2, ![2048, 1024]⟩
abbrev S1024x1024 : Shape := ⟨2, ![1024, 1024]⟩
abbrev S1x2048x8 : Shape := ⟨3, ![1, 2048, 8]⟩
abbrev S1x1024x8 : Shape := ⟨3, ![1, 1024, 8]⟩
abbrev S1024 : Shape := ⟨1, ![1024]⟩
abbrev S2048x8 : Shape := ⟨2, ![2048, 8]⟩
abbrev S1024x8 : Shape := ⟨2, ![1024, 8]⟩
abbrev S2048x128 : Shape := ⟨2, ![2048, 128]⟩
abbrev S1024x128 : Shape := ⟨2, ![1024, 128]⟩
abbrev S2048x1 : Shape := ⟨2, ![2048, 1]⟩
abbrev S1024x1 : Shape := ⟨2, ![1024, 1]⟩
abbrev S1x1024 : Shape := ⟨2, ![1, 1024]⟩

abbrev nBuf : Space → Nat
  | .hbm => 66
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .f32⟩
  | .hbm, ⟨12, _⟩ => ⟨S_, .f32⟩
  | .hbm, ⟨13, _⟩ => ⟨S8192x32x1, .f32⟩
  | .hbm, ⟨14, _⟩ => ⟨S8192x32x1, .i1⟩
  | .hbm, ⟨15, _⟩ => ⟨S_, .f32⟩
  | .hbm, ⟨16, _⟩ => ⟨S8192x32x1, .f32⟩
  | .hbm, ⟨17, _⟩ => ⟨S8192x32x1, .f32⟩
  | .hbm, ⟨18, _⟩ => ⟨S8192x32x128, .f32⟩
  | .hbm, ⟨19, _⟩ => ⟨S8192x32x128, .f32⟩
  | .hbm, ⟨20, _⟩ => ⟨S8192x32x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x32x128, .f32⟩
  | .hbm, ⟨25, _⟩ => ⟨S8192x32x128, .f32⟩
  | .hbm, ⟨26, _⟩ => ⟨S_, .f32⟩
  | .hbm, ⟨27, _⟩ => ⟨S8192x32x128, .f32⟩
  | .hbm, ⟨28, _⟩ => ⟨S8192x32x128, .f32⟩
  | .hbm, ⟨29, _⟩ => ⟨S8192x4096, .f32⟩
  | .hbm, ⟨30, _⟩ => ⟨S8192x4096, .bf16⟩
  | .hbm, ⟨31, _⟩ => ⟨S8192x32, .f32⟩
  | .hbm, ⟨32, _⟩ => ⟨S4096x32x128, .f32⟩
  | .hbm, ⟨33, _⟩ => ⟨S4096x32x128, .f32⟩
  | .hbm, ⟨34, _⟩ => ⟨S_, .f32⟩
  | .hbm, ⟨35, _⟩ => ⟨S4096x32, .f32⟩
  | .hbm, ⟨36, _⟩ => ⟨S4096x32x1, .f32⟩
  | .hbm, ⟨37, _⟩ => ⟨S_, .f32⟩
  | .hbm, ⟨38, _⟩ => ⟨S4096x32x1, .f32⟩
  | .hbm, ⟨39, _⟩ => ⟨S4096x32x1, .f32⟩
  | .hbm, ⟨40, _⟩ => ⟨S_, .f32⟩
  | .hbm, ⟨41, _⟩ => ⟨S4096x32x1, .f32⟩
  | .hbm, ⟨42, _⟩ => ⟨S4096x32x1, .i1⟩
  | .hbm, ⟨43, _⟩ => ⟨S_, .f32⟩
  | .hbm, ⟨44, _⟩ => ⟨S4096x32x1, .f32⟩
  | .hbm, ⟨45, _⟩ => ⟨S4096x32x1, .f32⟩
  | .hbm, ⟨46, _⟩ => ⟨S4096x32x128, .f32⟩
  | .hbm, ⟨47, _⟩ => ⟨S4096x32x128, .f32⟩
  | .hbm, ⟨48, _⟩ => ⟨S4096x32x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096x32x128, .f32⟩
  | .hbm, ⟨53, _⟩ => ⟨S4096x32x128, .f32⟩
  | .hbm, ⟨54, _⟩ => ⟨S_, .f32⟩
  | .hbm, ⟨55, _⟩ => ⟨S4096x32x128, .f32⟩
  | .hbm, ⟨56, _⟩ => ⟨S4096x32x128, .f32⟩
  | .hbm, ⟨57, _⟩ => ⟨S4096x4096, .f32⟩
  | .hbm, ⟨58, _⟩ => ⟨S4096x4096, .bf16⟩
  | .hbm, ⟨59, _⟩ => ⟨S4096x32, .f32⟩
  | .hbm, ⟨60, _⟩ => ⟨S8192x4x8, .f32⟩
  | .hbm, ⟨61, _⟩ => ⟨S4x8192x8, .f32⟩
  | .hbm, ⟨62, _⟩ => ⟨S4096x4x8, .f32⟩
  | .hbm, ⟨63, _⟩ => ⟨S4x4096x8, .f32⟩
  | .hbm, ⟨64, _⟩ => ⟨S8192x4096, .f32⟩
  | .hbm, ⟨65, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x8, .f32⟩
  | .local _ .vmem, ⟨5, _⟩ => ⟨S1x2048x8, .f32⟩
  | .local _ .vmem, ⟨6, _⟩ => ⟨S1x1024x8, .f32⟩
  | .local _ .vmem, ⟨7, _⟩ => ⟨S1x1024x8, .f32⟩
  | .local _ .vmem, ⟨8, _⟩ => ⟨S1024, .f32⟩
  | .local _ .vmem, ⟨9, _⟩ => ⟨S1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_cst_10 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v115 : BitVec 1 := Scalar.cmpi .eq arg2 c3_i32
  let v116 : BitVec 32 := Scalar.extui v115
  let c0_i32_42 : BitVec 32 := 0#32
  let v117 : BitVec 1 := Scalar.cmpi .ne v116 c0_i32_42
  v117

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  bitsLt_bf16_f32 : FTy.bits .bf16 < FTy.bits .f32
  shapeCasts_S8192x32x1_S8192x32 : S8192x32x1.ShapeCasts S8192x32
  shapeCasts_S4096x4096_S4096x32x128 : S4096x4096.ShapeCasts S4096x32x128
  reducesTo_S4096x32x128_S4096x32_d2 : S4096x32x128.ReducesTo [2] S4096x32
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x128_0_1_2 : S4096x32x1.BroadcastsInDim S4096x32x128 (![0, 1, 2] : Fin 3 → Fin S4096x32x128.rank)
  bcast_S_S4096x32x128 : S_.BroadcastsInDim S4096x32x128 (![] : Fin 0 → Fin S4096x32x128.rank)
  shapeCasts_S4096x32x128_S4096x4096 : S4096x32x128.ShapeCasts S4096x4096
  shapeCasts_S4096x32x1_S4096x32 : S4096x32x1.ShapeCasts S4096x32
  shapeCasts_S8192x32_S8192x4x8 : S8192x32.ShapeCasts S8192x4x8
  transposes_S8192x4x8_S4x8192x8_1_0_2 : S8192x4x8.Transposes [1, 0, 2] S4x8192x8
  shapeCasts_S4096x32_S4096x4x8 : S4096x32.ShapeCasts S4096x4x8
  transposes_S4096x4x8_S4x4096x8_1_0_2 : S4096x4x8.Transposes [1, 0, 2] S4x4096x8
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048x8_S1x2048x8_0_0_0 : ∀ a, (![0, 0, 0] : Fin 3 → Nat) a + S1x2048x8.size a ≤ S1x2048x8.size a
  h_S1x2048x8 : 0 < S1x2048x8.numel
  shapeCasts_S1x2048x8_S2048x8 : S1x2048x8.ShapeCasts S2048x8
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S2048x1024_S2048x128_0_0 : ∀ a, (![0, 0] : Fin 2 → Nat) a + S2048x128.size a ≤ S2048x1024.size a
  h_S2048x128 : 0 < S2048x128.numel
  shapeCasts_S2048x128_S2048x128 : S2048x128.ShapeCasts S2048x128
  inb_S1024x1024_S1024x128_0_0 : ∀ a, (![0, 0] : Fin 2 → Nat) a + S1024x128.size a ≤ S1024x1024.size a
  h_S1024x128 : 0 < S1024x128.numel
  shapeCasts_S1024x128_S1024x128 : S1024x128.ShapeCasts S1024x128
  slices_S2048x8_o0_0_S2048x1 : S2048x8.Slices ![0, 0] S2048x1
  slices_S1024x8_o0_0_S1024x1 : S1024x8.Slices ![0, 0] S1024x1
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  inb_S2048x1024_S2048x128_0_128 : ∀ a, (![0, 128] : Fin 2 → Nat) a + S2048x128.size a ≤ S2048x1024.size a
  inb_S1024x1024_S1024x128_0_128 : ∀ a, (![0, 128] : Fin 2 → Nat) a + S1024x128.size a ≤ S1024x1024.size a
  slices_S2048x8_o0_1_S2048x1 : S2048x8.Slices ![0, 1] S2048x1
  slices_S1024x8_o0_1_S1024x1 : S1024x8.Slices ![0, 1] S1024x1
  inb_S2048x1024_S2048x128_0_256 : ∀ a, (![0, 256] : Fin 2 → Nat) a + S2048x128.size a ≤ S2048x1024.size a
  inb_S1024x1024_S1024x128_0_256 : ∀ a, (![0, 256] : Fin 2 → Nat) a + S1024x128.size a ≤ S1024x1024.size a
  slices_S2048x8_o0_2_S2048x1 : S2048x8.Slices ![0, 2] S2048x1
  slices_S1024x8_o0_2_S1024x1 : S1024x8.Slices ![0, 2] S1024x1
  inb_S2048x1024_S2048x128_0_384 : ∀ a, (![0, 384] : Fin 2 → Nat) a + S2048x128.size a ≤ S2048x1024.size a
  inb_S1024x1024_S1024x128_0_384 : ∀ a, (![0, 384] : Fin 2 → Nat) a + S1024x128.size a ≤ S1024x1024.size a
  slices_S2048x8_o0_3_S2048x1 : S2048x8.Slices ![0, 3] S2048x1
  slices_S1024x8_o0_3_S1024x1 : S1024x8.Slices ![0, 3] S1024x1
  inb_S2048x1024_S2048x128_0_512 : ∀ a, (![0, 512] : Fin 2 → Nat) a + S2048x128.size a ≤ S2048x1024.size a
  inb_S1024x1024_S1024x128_0_512 : ∀ a, (![0, 512] : Fin 2 → Nat) a + S1024x128.size a ≤ S1024x1024.size a
  slices_S2048x8_o0_4_S2048x1 : S2048x8.Slices ![0, 4] S2048x1
  slices_S1024x8_o0_4_S1024x1 : S1024x8.Slices ![0, 4] S1024x1
  inb_S2048x1024_S2048x128_0_640 : ∀ a, (![0, 640] : Fin 2 → Nat) a + S2048x128.size a ≤ S2048x1024.size a
  inb_S1024x1024_S1024x128_0_640 : ∀ a, (![0, 640] : Fin 2 → Nat) a + S1024x128.size a ≤ S1024x1024.size a
  slices_S2048x8_o0_5_S2048x1 : S2048x8.Slices ![0, 5] S2048x1
  slices_S1024x8_o0_5_S1024x1 : S1024x8.Slices ![0, 5] S1024x1
  inb_S2048x1024_S2048x128_0_768 : ∀ a, (![0, 768] : Fin 2 → Nat) a + S2048x128.size a ≤ S2048x1024.size a
  inb_S1024x1024_S1024x128_0_768 : ∀ a, (![0, 768] : Fin 2 → Nat) a + S1024x128.size a ≤ S1024x1024.size a
  slices_S2048x8_o0_6_S2048x1 : S2048x8.Slices ![0, 6] S2048x1
  slices_S1024x8_o0_6_S1024x1 : S1024x8.Slices ![0, 6] S1024x1
  inb_S2048x1024_S2048x128_0_896 : ∀ a, (![0, 896] : Fin 2 → Nat) a + S2048x128.size a ≤ S2048x1024.size a
  inb_S1024x1024_S1024x128_0_896 : ∀ a, (![0, 896] : Fin 2 → Nat) a + S1024x128.size a ≤ S1024x1024.size a
  slices_S2048x8_o0_7_S2048x1 : S2048x8.Slices ![0, 7] S2048x1
  slices_S1024x8_o0_7_S1024x1 : S1024x8.Slices ![0, 7] S1024x1
  inb_S1024_S1024_0 : ∀ a, (![0] : Fin 1 → Nat) a + S1024.size a ≤ S1024.size a
  h_S1024 : 0 < S1024.numel
  shapeCasts_S1024_S1x1024 : S1024.ShapeCasts S1x1024
  shapeCasts_S8192x4096_S4x2048x4096 : S8192x4096.ShapeCasts S4x2048x4096
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x8.size a ≤ S4x8192x8.size a
  hwx0_2 : ∀ i : grid0.Coords, EltTy.bits .f32 = 32 ∨ (Rect.block (s := S4x8192x8) S1x2048x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x8.size a ≤ S4x4096x8.size a
  hwx0_3 : ∀ i : grid0.Coords, EltTy.bits .f32 = 32 ∨ (Rect.block (s := S4x4096x8) S1x1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v16) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x2048x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩
abbrev S4x2048x32x128 : Shape := ⟨4, ![4, 2048, 32, 128]⟩
abbrev S4x2048x32 : Shape := ⟨3, ![4, 2048, 32]⟩
abbrev S4x2048x32x1 : Shape := ⟨4, ![4, 2048, 32, 1]⟩
abbrev S1x1x4096 : Shape := ⟨3, ![1, 1, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x32x128, .f32⟩
  | .hbm, ⟨4, _⟩ => ⟨S4096x32x128, .f32⟩
  | .hbm, ⟨5, _⟩ => ⟨S_, .f32⟩
  | .hbm, ⟨6, _⟩ => ⟨S4096x32, .f32⟩
  | .hbm, ⟨7, _⟩ => ⟨S4096x32x1, .f32⟩
  | .hbm, ⟨8, _⟩ => ⟨S_, .f32⟩
  | .hbm, ⟨9, _⟩ => ⟨S4096x32x1, .f32⟩
  | .hbm, ⟨10, _⟩ => ⟨S4096x32x1, .f32⟩
  | .hbm, ⟨11, _⟩ => ⟨S_, .f32⟩
  | .hbm, ⟨12, _⟩ => ⟨S4096x32x1, .f32⟩
  | .hbm, ⟨13, _⟩ => ⟨S4096x32x1, .i1⟩
  | .hbm, ⟨14, _⟩ => ⟨S_, .f32⟩
  | .hbm, ⟨15, _⟩ => ⟨S4096x32x1, .f32⟩
  | .hbm, ⟨16, _⟩ => ⟨S4096x32x1, .f32⟩
  | .hbm, ⟨17, _⟩ => ⟨S4096x32x128, .f32⟩
  | .hbm, ⟨18, _⟩ => ⟨S4096x32x128, .f32⟩
  | .hbm, ⟨19, _⟩ => ⟨S4096x32x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x32x128, .f32⟩
  | .hbm, ⟨24, _⟩ => ⟨S4096x32x128, .f32⟩
  | .hbm, ⟨25, _⟩ => ⟨S_, .f32⟩
  | .hbm, ⟨26, _⟩ => ⟨S4096x32x128, .f32⟩
  | .hbm, ⟨27, _⟩ => ⟨S4096x32x128, .f32⟩
  | .hbm, ⟨28, _⟩ => ⟨S4096x32x128, .f32⟩
  | .hbm, ⟨29, _⟩ => ⟨S4096x32x128, .f32⟩
  | .hbm, ⟨30, _⟩ => ⟨S4096x4096, .f32⟩
  | .hbm, ⟨31, _⟩ => ⟨S4x2048x32x128, .f32⟩
  | .hbm, ⟨32, _⟩ => ⟨S4x2048x32x128, .f32⟩
  | .hbm, ⟨33, _⟩ => ⟨S_, .f32⟩
  | .hbm, ⟨34, _⟩ => ⟨S4x2048x32, .f32⟩
  | .hbm, ⟨35, _⟩ => ⟨S4x2048x32x1, .f32⟩
  | .hbm, ⟨36, _⟩ => ⟨S_, .f32⟩
  | .hbm, ⟨37, _⟩ => ⟨S4x2048x32x1, .f32⟩
  | .hbm, ⟨38, _⟩ => ⟨S4x2048x32x1, .f32⟩
  | .hbm, ⟨39, _⟩ => ⟨S_, .f32⟩
  | .hbm, ⟨40, _⟩ => ⟨S4x2048x32x1, .f32⟩
  | .hbm, ⟨41, _⟩ => ⟨S4x2048x32x1, .i1⟩
  | .hbm, ⟨42, _⟩ => ⟨S_, .f32⟩
  | .hbm, ⟨43, _⟩ => ⟨S4x2048x32x1, .f32⟩
  | .hbm, ⟨44, _⟩ => ⟨S4x2048x32x1, .f32⟩
  | .hbm, ⟨45, _⟩ => ⟨S4x2048x32x128, .f32⟩
  | .hbm, ⟨46, _⟩ => ⟨S4x2048x32x128, .f32⟩
  | .hbm, ⟨47, _⟩ => ⟨S4x2048x32x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4x2048x32x128, .f32⟩
  | .hbm, ⟨52, _⟩ => ⟨S4x2048x32x128, .f32⟩
  | .hbm, ⟨53, _⟩ => ⟨S_, .f32⟩
  | .hbm, ⟨54, _⟩ => ⟨S4x2048x32x128, .f32⟩
  | .hbm, ⟨55, _⟩ => ⟨S4x2048x32x128, .f32⟩
  | .hbm, ⟨56, _⟩ => ⟨S4x2048x32x128, .f32⟩
  | .hbm, ⟨57, _⟩ => ⟨S4x2048x32x128, .f32⟩
  | .hbm, ⟨58, _⟩ => ⟨S4x2048x4096, .f32⟩
  | .hbm, ⟨59, _⟩ => ⟨S4x2048x4096, .f32⟩
  | .hbm, ⟨60, _⟩ => ⟨S1x1x4096, .f32⟩
  | .hbm, ⟨61, _⟩ => ⟨S4x2048x4096, .f32⟩
  | .hbm, ⟨62, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_cst_10 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  shapeCasts_S4096x4096_S4096x32x128 : S4096x4096.ShapeCasts S4096x32x128
  reducesTo_S4096x32x128_S4096x32_d2 : S4096x32x128.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x128_0_1_2 : S4096x32x1.BroadcastsInDim S4096x32x128 (![0, 1, 2] : Fin 3 → Fin S4096x32x128.rank)
  bcast_S_S4096x32x128 : S_.BroadcastsInDim S4096x32x128 (![] : Fin 0 → Fin S4096x32x128.rank)
  shapeCasts_S4096x32x128_S4096x4096 : S4096x32x128.ShapeCasts S4096x4096
  shapeCasts_S4x2048x4096_S4x2048x32x128 : S4x2048x4096.ShapeCasts S4x2048x32x128
  reducesTo_S4x2048x32x128_S4x2048x32_d3 : S4x2048x32x128.ReducesTo [3] S4x2048x32
  bcast_S4x2048x32_S4x2048x32x1_0_1_2 : S4x2048x32.BroadcastsInDim S4x2048x32x1 (![0, 1, 2] : Fin 3 → Fin S4x2048x32x1.rank)
  bcast_S_S4x2048x32x1 : S_.BroadcastsInDim S4x2048x32x1 (![] : Fin 0 → Fin S4x2048x32x1.rank)
  bcast_S4x2048x32x1_S4x2048x32x128_0_1_2_3 : S4x2048x32x1.BroadcastsInDim S4x2048x32x128 (![0, 1, 2, 3] : Fin 4 → Fin S4x2048x32x128.rank)
  bcast_S_S4x2048x32x128 : S_.BroadcastsInDim S4x2048x32x128 (![] : Fin 0 → Fin S4x2048x32x128.rank)
  shapeCasts_S4x2048x32x128_S4x2048x4096 : S4x2048x32x128.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BlockReads.lean ====
/-
  Where each input tile of a grid point sits in its array.

  The grid is 4 × 4 × 4, walked with the reduction step fastest: point `t` is row tile `t / 16`, column tile
  `(t / 4) % 4`, reduction step `t % 4`.  Its activation-code tile is rows `(t/16)·2048 …` and lanes
  `(t%4)·1024 …` of the [8192, 4096] codes; its weight-code tile rows `((t/4)%4)·1024 …` and the same lanes of the
  [4096, 4096] codes; its two scale tiles are plane `t % 4` of the [4, 8192, 8] and [4, 4096, 8] scale arrays at
  the same rows; its bias tile entries `((t/4)%4)·1024 …` of the bias.
-/
import proofs.«119646_j76888504533247_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

theorem N64 : cfg0.N = 64 := N_0

/-- The row of the flattened activations that local row `p` of point `t`'s tile is. -/
def rowAt (t : Fin cfg0.N) (p : Fin 2048) : Fin 8192 :=
  ⟨t.val / 16 * 2048 + p.val, by have h := t.isLt; have hN : cfg0.N = 64 := N64; have := p.isLt; omega⟩
/-- The row of the weights (= the output column) that local row `q` of point `t`'s tile is. -/
def colAt (t : Fin cfg0.N) (q : Fin 1024) : Fin 4096 :=
  ⟨t.val / 4 % 4 * 1024 + q.val, by have := q.isLt; omega⟩
/-- The place along the reduction axis that local lane `l` of point `t`'s tiles is. -/
def laneAt (t : Fin cfg0.N) (l : Fin 1024) : Fin 4096 :=
  ⟨t.val % 4 * 1024 + l.val, by have := l.isLt; omega⟩
/-- The reduction step of point `t`. -/
def stepAt (t : Fin cfg0.N) : Fin 4 := ⟨t.val % 4, Nat.mod_lt _ (by decide)⟩

/-- The printed index maps, decided once over the 64 grid points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 3) = t.val % 4 ∧ win0_2.index t (1 : Fin 3) = t.val / 16 ∧ win0_2.index t (2 : Fin 3) = 0
    ∧ win0_3.index t (0 : Fin 3) = t.val % 4 ∧ win0_3.index t (1 : Fin 3) = t.val / 4 % 4 ∧ win0_3.index t (2 : Fin 3) = 0
    ∧ win0_4.index t (0 : Fin 1) = t.val / 4 % 4
    ∧ win0_5.index t (0 : Fin 2) = t.val / 16 ∧ win0_5.index t (1 : Fin 2) = t.val / 4 % 4 :=
  (by decide +kernel : ∀ t : Fin grid0.N, _)

/-- The activation-code tile. -/
theorem iblk0_apply (c : Dev nD) (t : Fin cfg0.N) (p : Fin 2048) (l : Fin 1024) :
    (iblk m c 0 t : Vec F S2048x1024 .bf16) (ix2 p l) = (V m c main_v16 : S8192x4096.Idx → Elt F .bf16) (ix2 (rowAt t p) (laneAt t l)) := by
  obtain ⟨e0, e1, -⟩ := idx_facts t
  unfold iblk
  rw [View.read_apply]
  show V m c main_v16 _ = V m c main_v16 _
  congr 1
  funext a; apply Fin.ext
  match a with
  | ⟨0, _⟩ => show win0_0.index t (0 : Fin 2) * 2048 + 1 * p.val = t.val / 16 * 2048 + p.val; rw [e0]; omega
  | ⟨1, _⟩ => show win0_0.index t (1 : Fin 2) * 1024 + 1 * l.val = t.val % 4 * 1024 + l.val; rw [e1]; omega

/-- The weight-code tile. -/
theorem iblk1_apply (c : Dev nD) (t : Fin cfg0.N) (q : Fin 1024) (l : Fin 1024) :
    (iblk m c 1 t : Vec F S1024x1024 .bf16) (ix2 q l) = (V m c main_v33 : S4096x4096.Idx → Elt F .bf16) (ix2 (colAt t q) (laneAt t l)) := by
  obtain ⟨-, -, e0, e1, -⟩ := idx_facts t
  unfold iblk
  rw [View.read_apply]
  show V m c main_v33 _ = V m c main_v33 _
  congr 1
  funext a; apply Fin.ext
  match a with
  | ⟨0, _⟩ => show win0_1.index t (0 : Fin 2) * 1024 + 1 * q.val = t.val / 4 % 4 * 1024 + q.val; rw [e0]; omega
  | ⟨1, _⟩ => show win0_1.index t (1 : Fin 2) * 1024 + 1 * l.val = t.val % 4 * 1024 + l.val; rw [e1]; omega

/-- The activation-scale tile. -/
theorem iblk2_apply (c : Dev nD) (t : Fin cfg0.N) (p : Fin 2048) (g : Fin 8) :
    (iblk m c 2 t : Vec F S1x2048x8 .f32) (ix3 (0 : Fin 1) p g) = (V m c main_v36 : S4x8192x8.Idx → Elt F .f32) (ix3 (stepAt t) (rowAt t p) g) := by
  obtain ⟨-, -, -, -, e0, e1, e2, -⟩ := idx_facts t
  unfold iblk
  rw [View.read_apply]
  show V m c main_v36 _ = V m c main_v36 _
  congr 1
  funext a; apply Fin.ext
  match a with
  | ⟨0, _⟩ => show win0_2.index t (0 : Fin 3) * 1 + 1 * 0 = t.val % 4; rw [e0]; omega
  | ⟨1, _⟩ => show win0_2.index t (1 : Fin 3) * 2048 + 1 * p.val = t.val / 16 * 2048 + p.val; rw [e1]; omega
  | ⟨2, _⟩ => show win0_2.index t (2 : Fin 3) * 8 + 1 * g.val = g.val; rw [e2]; omega

/-- The weight-scale tile. -/
theorem iblk3_apply (c : Dev nD) (t : Fin cfg0.N) (q : Fin 1024) (g : Fin 8) :
    (iblk m c 3 t : Vec F S1x1024x8 .f32) (ix3 (0 : Fin 1) q g) = (V m c main_v38 : S4x4096x8.Idx → Elt F .f32) (ix3 (stepAt t) (colAt t q) g) := by
  obtain ⟨-, -, -, -, -, -, -, e0, e1, e2, -⟩ := idx_facts t
  unfold iblk
  rw [View.read_apply]
  show V m c main_v38 _ = V m c main_v38 _
  congr 1
  funext a; apply Fin.ext
  match a with
  | ⟨0, _⟩ => show win0_3.index t (0 : Fin 3) * 1 + 1 * 0 = t.val % 4; rw [e0]; omega
  | ⟨1, _⟩ => show win0_3.index t (1 : Fin 3) * 1024 + 1 * q.val = t.val / 4 % 4 * 1024 + q.val; rw [e1]; omega
  | ⟨2, _⟩ => show win0_3.index t (2 : Fin 3) * 8 + 1 * g.val = g.val; rw [e2]; omega

/-- The bias tile. -/
theorem iblk4_apply (c : Dev nD) (t : Fin cfg0.N) (q : Fin 1024) :
    (iblk m c 4 t : Vec F S1024 .f32) (ix1 q) = (V m c main_arg2 : S4096.Idx → Elt F .f32) (ix1 (colAt t q)) := by
  obtain ⟨-, -, -, -, -, -, -, -, -, -, e0, -⟩ := idx_facts t
  unfold iblk
  rw [View.read_apply]
  show V m c main_arg2 _ = V m c main_arg2 _
  congr 1
  funext a; apply Fin.ext
  match a with
  | ⟨0, _⟩ => show win0_4.index t (0 : Fin 1) * 1024 + 1 * q.val = t.val / 4 % 4 * 1024 + q.val; rw [e0]; omega

end Cert.KernelIdeal.Blocks

end
-- ==== Proof.Pieces.lean ====
/-
  What one grid point of the kernel leaves behind, as values.

  The body keeps a [2048, 1024] accumulator in a scratch buffer that lives across grid points.  At a point it
  (at the first reduction step only) zeroes the accumulator, then adds to it, for each of the eight 128-lane
  groups of the point's two code tiles, the groups' matrix product times the outer product of the groups' scales,
  and stores it back; at the last reduction step it also writes accumulator + bias to the output tile.
  `accStep` is that update as one pure term of the old accumulator and the point's four input tiles; the lemmas
  below say that each control case of the body leaves exactly it (and, in the last case, it plus the bias).
-/
import proofs.«119646_j76888504533247_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

/-- One grid point's update of the accumulator `acc`: the eight lane groups of the code tiles `x0` (activations,
    [2048, 1024]) and `x1` (weights, [1024, 1024]) with the scale tiles `x2` ([1, 2048, 8]) and `x3` ([1, 1024, 8]). -/
def accStep (acc : Vec F S2048x1024 .f32) (x0 : Vec F S2048x1024 .bf16) (x1 : Vec F S1024x1024 .bf16)
    (x2 : Vec F S1x2048x8 .f32) (x3 : Vec F S1x1024x8 .f32) : Vec F S2048x1024 .f32 :=
  k0_pay8 (k0_pay2 x2) (k0_pay3 x3)
    (k0_pay5 (k0_pay2 x2) (k0_pay3 x3)
      (k0_pay4 x2 x3 acc (View.ld x0 (Rect.unit ![0, 0] ![2048, 128] inb_S2048x1024_S2048x128_0_0)) (View.ld x1 (Rect.unit ![0, 0] ![1024, 128] inb_S1024x1024_S1024x128_0_0)) (View.ld x0 (Rect.unit ![0, 128] ![2048, 128] inb_S2048x1024_S2048x128_0_128)) (View.ld x1 (Rect.unit ![0, 128] ![1024, 128] inb_S1024x1024_S1024x128_0_128)))
      (View.ld x0 (Rect.unit ![0, 256] ![2048, 128] inb_S2048x1024_S2048x128_0_256)) (View.ld x1 (Rect.unit ![0, 256] ![1024, 128] inb_S1024x1024_S1024x128_0_256)) (View.ld x0 (Rect.unit ![0, 384] ![2048, 128] inb_S2048x1024_S2048x128_0_384)) (View.ld x1 (Rect.unit ![0, 384] ![1024, 128] inb_S1024x1024_S1024x128_0_384)) (View.ld x0 (Rect.unit ![0, 512] ![2048, 128] inb_S2048x1024_S2048x128_0_512)) (View.ld x1 (Rect.unit ![0, 512] ![1024, 128] inb_S1024x1024_S1024x128_0_512)))
    (k0_pay6 (View.ld x0 (Rect.unit ![0, 640] ![2048, 128] inb_S2048x1024_S2048x128_0_640))) (k0_pay7 (View.ld x1 (Rect.unit ![0, 640] ![1024, 128] inb_S1024x1024_S1024x128_0_640))) (View.ld x0 (Rect.unit ![0, 768] ![2048, 128] inb_S2048x1024_S2048x128_0_768)) (View.ld x1 (Rect.unit ![0, 768] ![1024, 128] inb_S1024x1024_S1024x128_0_768)) (View.ld x0 (Rect.unit ![0, 896] ![2048, 128] inb_S2048x1024_S2048x128_0_896)) (View.ld x1 (Rect.unit ![0, 896] ![1024, 128] inb_S1024x1024_S1024x128_0_896))

/-- First reduction step: the accumulator is zeroed, read back, updated and stored. -/
theorem scratch_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x2048x8 .f32) (harg5 : arg5.IsWhole) (arg6 : Memref sig .tc .vmem S1x1024x8 .f32) (harg6 : arg6.IsWhole) (arg7 : Memref sig .tc .vmem S1024 .f32) (harg7 : arg7.IsWhole) (arg8 : Memref sig .tc .vmem S2048x1024 .f32) (harg8 : arg8.IsWhole) (arg9 : Memref sig .tc .vmem S2048x1024 .f32) (harg9 : arg9.IsWhole) (hc0 : cond0_0 i) (hc1 : ¬cond0_1 i) (x0 : Vec F S2048x1024 .bf16) (x1 : Vec F S1024x1024 .bf16) (x2 : Vec F S1x2048x8 .f32) (x3 : Vec F S1x1024x8 .f32) (x4 : Vec F S1024 .f32) :
    sout0_A_0 c i arg3 harg3 arg4 harg4 arg5 harg5 arg6 harg6 arg7 harg7 arg8 harg8 arg9 harg9 hc0 hc1 x0 x1 x2 x3 x4 = accStep k0_pay1 x0 x1 x2 x3 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x1024) hz2, View.readCov_unit_zero (S := S2048x1024) _ hz2]
  simp only [View.readAt_eq_ld, harg3.read_unread, harg4.read_unread, harg5.read_unread, harg6.read_unread,
    View.ld_unit_zero (S := S1x2048x8) hz3, View.ld_unit_zero (S := S1x1024x8) hz3]
  rfl

/-- A middle reduction step: the accumulator the point before left is updated and stored. -/
theorem scratch_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x2048x8 .f32) (harg5 : arg5.IsWhole) (arg6 : Memref sig .tc .vmem S1x1024x8 .f32) (harg6 : arg6.IsWhole) (arg7 : Memref sig .tc .vmem S1024 .f32) (harg7 : arg7.IsWhole) (arg8 : Memref sig .tc .vmem S2048x1024 .f32) (harg8 : arg8.IsWhole) (arg9 : Memref sig .tc .vmem S2048x1024 .f32) (harg9 : arg9.IsWhole) (hc0 : ¬cond0_0 i) (hc1 : ¬cond0_1 i) (x0 : Vec F S2048x1024 .bf16) (x1 : Vec F S1024x1024 .bf16) (x2 : Vec F S1x2048x8 .f32) (x3 : Vec F S1x1024x8 .f32) (x4 : Vec F S1024 .f32) (xs : Vec F S2048x1024 .f32) :
    sout0_B_0 c i arg3 harg3 arg4 harg4 arg5 harg5 arg6 harg6 arg7 harg7 arg8 harg8 arg9 harg9 hc0 hc1 x0 x1 x2 x3 x4 xs = accStep xs x0 x1 x2 x3 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs)]
  unfold kernelRun0_B
  dsimp only
  sl_unfold_words
  rw [View.canon_unit_zero hz2]
  simp only [View.readAt_eq_ld, harg3.read_unread, harg4.read_unread, harg5.read_unread, harg6.read_unread, harg9.read_unread,
    View.ld_unit_zero (S := S1x2048x8) hz3, View.ld_unit_zero (S := S1x1024x8) hz3, View.ld_unit_zero (S := S2048x1024) hz2]
  rfl

/-- The last reduction step leaves the same update in the accumulator … -/
theorem scratch_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x2048x8 .f32) (harg5 : arg5.IsWhole) (arg6 : Memref sig .tc .vmem S1x1024x8 .f32) (harg6 : arg6.IsWhole) (arg7 : Memref sig .tc .vmem S1024 .f32) (harg7 : arg7.IsWhole) (arg8 : Memref sig .tc .vmem S2048x1024 .f32) (harg8 : arg8.IsWhole) (arg9 : Memref sig .tc .vmem S2048x1024 .f32) (harg9 : arg9.IsWhole) (hc0 : ¬cond0_0 i) (hc1 : cond0_1 i) (x0 : Vec F S2048x1024 .bf16) (x1 : Vec F S1024x1024 .bf16) (x2 : Vec F S1x2048x8 .f32) (x3 : Vec F S1x1024x8 .f32) (x4 : Vec F S1024 .f32) (xs : Vec F S2048x1024 .f32) :
    sout0_C_0 c i arg3 harg3 arg4 harg4 arg5 harg5 arg6 harg6 arg7 harg7 arg8 harg8 arg9 harg9 hc0 hc1 x0 x1 x2 x3 x4 xs = accStep xs x0 x1 x2 x3 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero hz2]
  simp only [View.readAt_eq_ld, harg3.read_unread, harg4.read_unread, harg5.read_unread, harg6.read_unread, harg9.read_unread,
    View.ld_unit_zero (S := S1x2048x8) hz3, View.ld_unit_zero (S := S1x1024x8) hz3, View.ld_unit_zero (S := S2048x1024) hz2]
  rfl

/-- … and writes the updated accumulator plus the bias tile to the output tile. -/
theorem out_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x2048x8 .f32) (harg5 : arg5.IsWhole) (arg6 : Memref sig .tc .vmem S1x1024x8 .f32) (harg6 : arg6.IsWhole) (arg7 : Memref sig .tc .vmem S1024 .f32) (harg7 : arg7.IsWhole) (arg8 : Memref sig .tc .vmem S2048x1024 .f32) (harg8 : arg8.IsWhole) (arg9 : Memref sig .tc .vmem S2048x1024 .f32) (harg9 : arg9.IsWhole) (hc0 : ¬cond0_0 i) (hc1 : cond0_1 i) (x0 : Vec F S2048x1024 .bf16) (x1 : Vec F S1024x1024 .bf16) (x2 : Vec F S1x2048x8 .f32) (x3 : Vec F S1x1024x8 .f32) (x4 : Vec F S1024 .f32) (xs : Vec F S2048x1024 .f32) :
    out0_C_5 c i arg3 harg3 arg4 harg4 arg5 harg5 arg6 harg6 arg7 harg7 arg8 harg8 arg9 harg9 hc0 hc1 x0 x1 x2 x3 x4 xs = k0_pay9 (accStep xs x0 x1 x2 x3) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero hz2, View.readCov_unit_zero (S := S2048x1024) _ hz2]
  simp only [View.readAt_eq_ld, harg3.read_unread, harg4.read_unread, harg5.read_unread, harg6.read_unread, harg7.read_unread, harg9.read_unread,
    View.ld_unit_zero (S := S1x2048x8) hz3, View.ld_unit_zero (S := S1x1024x8) hz3, View.ld_unit_zero (S := S2048x1024) hz2,
    View.ld_unit_zero (S := S1024) hz1]
  rfl

end Cert.KernelIdeal.Pieces

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Payloads.lean ====
/-
  The kernel body's arithmetic, read at an entry.

  At one grid point the body holds an accumulator of shape [2048, 1024] and adds to it, for each of the eight
  groups of 128 lanes it sees, one term: the product of a [2048, 128] block of activation codes with the transpose
  of a [1024, 128] block of weight codes (a sum over the 128 lanes of the group), times the activation scale of
  that row and group, times the weight scale of that column and group. The scales arrive as [2048, 8] and
  [1024, 8] arrays (a leading unit axis dropped); column g of the first is cut out as a [2048, 1] column and
  repeated along the rows, column g of the second is cut out, turned into a [1, 1024] row and repeated down the
  columns. Each statement below reads one of the body's values at the entry (p, q) and says which entries of the
  operands it depends on. The last value adds the bias, a vector of 1024 numbers viewed as a row and repeated down
  the columns.
-/
import proofs.«119646_j76888504533247_2_alg».proof.Proof.Gen.KernelIdeal.Skeleton
import proofs.«119646_j76888504533247_2_alg».proof.Proof.LibContractLast
import proofs.«119646_j76888504533247_2_alg».proof.Proof.LibColumns
import proofs.«119646_j76888504533247_2_alg».proof.Proof.LibRowBroadcast
import proofs.«119646_j76888504533247_2_alg».proof.Proof.LibRowCast
import Idealize.ShloMosaic.Lib.Pipeline.Value
import Idealize.ShloMosaic.Lib.ValueIdx
import Idealize.ShloMosaic.Lib.ValueLayout
import Idealize.ShloMosaic.PureOps.Ideal.Laws

noncomputable section

namespace Cert.KernelPayloads

open Idealize.ShloMosaic Idealize.ShloMosaic.ValueIdx Cert.KernelIdeal Cert.KernelIdeal.Gen

/-- One group's term at the entry (p, q): the sum over the group's 128 lanes of the products of the two codes,
    times the product of the row's and the column's scales for group g. -/
def contrib (a : FVec Ideal S2048x128 .bf16) (b : FVec Ideal S1024x128 .bf16) (sx : FVec Ideal S2048x8 .f32)
    (sw : FVec Ideal S1024x8 .f32) (g : Fin 8) (p : Fin 2048) (q : Fin 1024) : Ideal .f32 :=
  (∑ j : Fin 128, a (ix2 p j) * b (ix2 q j)) * (sx (ix2 p g) * sw (ix2 q g))

/-- The block product into a zero accumulator, at (p, q): the sum over the 128 lanes of l (p, k) * r (q, k). -/
theorem matmul_zero_apply (l : FVec Ideal S2048x128 .bf16) (r : FVec Ideal S1024x128 .bf16) (p : Fin 2048) (q : Fin 1024) :
    matmul (F := Ideal) dot_S2048x128_S1024x128_S2048x1024_1_1_0_0_n_n none l r
        (constant (F := Ideal) S2048x1024 .f32 0x00000000#32) (ix2 p q)
      = ∑ k : Fin 128, l (ix2 p k) * r (ix2 q k) := by
  refine (Ideal.matmul_constant_zero_apply dot_S2048x128_S1024x128_S2048x1024_1_1_0_0_n_n none l r (ix2 p q)).trans ?_
  contract_last dot_S2048x128_S1024x128_S2048x1024_1_1_0_0_n_n S2048x128 S1024x128 128

/-- The two scales of group o at (p, q): column o of the row scales repeated along the row, times column o of the
    column scales turned into a row and repeated down the column. -/
theorem scales_apply (sx : FVec Ideal S2048x8 .f32) (sw : FVec Ideal S1024x8 .f32) (o : ℕ) (ho : o < 8)
    (hx : S2048x8.Slices ![0, o] S2048x1) (hw : S1024x8.Slices ![0, o] S1024x1) (p : Fin 2048) (q : Fin 1024) :
    mulf (F := Ideal) (broadcastTo S2048x1024 (extractStridedSlice S2048x1 ![0, o] sx hx) broadcasts_S2048x1_S2048x1024)
        (broadcastTo S2048x1024 (transpose S1x1024 [1, 0] (extractStridedSlice S1024x1 ![0, o] sw hw)
          transposes_S1024x1_p1_0_S1x1024) broadcasts_S1x1024_S2048x1024) (ix2 p q)
      = sx (ix2 p (⟨o, ho⟩ : Fin 8)) * sw (ix2 q (⟨o, ho⟩ : Fin 8)) := by
  refine (mulf_apply _ _ _).trans ?_
  refine congrArg₂ (· * ·) ?_ ?_
  · refine (Cert.Columns.broadcastTo_a1_ab_apply _ broadcasts_S2048x1_S2048x1024 p q).trans ?_
    exact Cert.Columns.slice_col_apply o ho sx hx p 0
  · refine (Cert.RowBroadcast.broadcastTo_1b_ab_apply _ broadcasts_S1x1024_S2048x1024 p q).trans ?_
    refine (transpose_apply [1, 0] _ transposes_S1024x1_p1_0_S1x1024 (ix2 (0 : Fin 1) q) (ix2 q (0 : Fin 1)) ?_).trans ?_
    · intro b
      match b with
      | ⟨0, _⟩ => rfl
      | ⟨1, _⟩ => rfl
    · exact Cert.Columns.slice_col_apply o ho sw hw q 0

/-- One group's term as the body computes it, at (p, q). -/
theorem group_apply (a : FVec Ideal S2048x128 .bf16) (b : FVec Ideal S1024x128 .bf16) (sx : FVec Ideal S2048x8 .f32)
    (sw : FVec Ideal S1024x8 .f32) (o : ℕ) (ho : o < 8)
    (hx : S2048x8.Slices ![0, o] S2048x1) (hw : S1024x8.Slices ![0, o] S1024x1) (p : Fin 2048) (q : Fin 1024) :
    mulf (F := Ideal) (matmul (F := Ideal) dot_S2048x128_S1024x128_S2048x1024_1_1_0_0_n_n none a b
          (constant (F := Ideal) S2048x1024 .f32 0x00000000#32))
        (mulf (F := Ideal) (broadcastTo S2048x1024 (extractStridedSlice S2048x1 ![0, o] sx hx) broadcasts_S2048x1_S2048x1024)
          (broadcastTo S2048x1024 (transpose S1x1024 [1, 0] (extractStridedSlice S1024x1 ![0, o] sw hw)
            transposes_S1024x1_p1_0_S1x1024) broadcasts_S1x1024_S2048x1024)) (ix2 p q)
      = contrib a b sx sw ⟨o, ho⟩ p q := by
  refine (mulf_apply _ _ _).trans ?_
  exact congrArg₂ (· * ·) (matmul_zero_apply a b p q) (scales_apply sx sw o ho hx hw p q)

/-! ## The body's values at an entry -/

/-- The first value is the zero accumulator: every entry is the number the zero word denotes. -/
theorem pay1_apply (p : Fin 2048) (q : Fin 1024) :
    k0_pay1 (F := Ideal) (ix2 p q) = Ideal.ofBits .f32 0x00000000#32 := by
  unfold Gen.k0_pay1
  rw [shapeCast_self]
  rfl

/-- The same, as the extended real 0. -/
theorem pay1_apply_zero (p : Fin 2048) (q : Fin 1024) : k0_pay1 (F := Ideal) (ix2 p q) = (0 : EReal) :=
  (pay1_apply p q).trans Ideal.ofBits_zero_f32

/-- The activation scales with their leading unit axis dropped: entry (p, g) is entry (0, p, g). -/
theorem pay2_apply (v3 : Vec Ideal S1x2048x8 .f32) (p : Fin 2048) (g : Fin 8) :
    k0_pay2 v3 (ix2 p g) = v3 (ix3 (0 : Fin 1) p g) := by
  unfold Gen.k0_pay2
  refine (shapeCast_dropUnit_apply ![2048, 8] v3 shapeCasts_S1x2048x8_S2048x8 (ix2 p g)).trans ?_
  refine congrArg v3 (funext fun a => ?_)
  match a with
  | ⟨0, _⟩ => rfl
  | ⟨1, _⟩ => rfl
  | ⟨2, _⟩ => rfl

/-- The weight scales with their leading unit axis dropped: entry (q, g) is entry (0, q, g). -/
theorem pay3_apply (v5 : Vec Ideal S1x1024x8 .f32) (q : Fin 1024) (g : Fin 8) :
    k0_pay3 v5 (ix2 q g) = v5 (ix3 (0 : Fin 1) q g) := by
  unfold Gen.k0_pay3
  refine (shapeCast_dropUnit_apply ![1024, 8] v5 shapeCasts_S1x1024x8_S1024x8 (ix2 q g)).trans ?_
  refine congrArg v5 (funext fun a => ?_)
  match a with
  | ⟨0, _⟩ => rfl
  | ⟨1, _⟩ => rfl
  | ⟨2, _⟩ => rfl

/-- After the first two groups: the accumulator found, plus the terms of groups 0 and 1. -/
theorem pay4_apply (v3 : Vec Ideal S1x2048x8 .f32) (v5 : Vec Ideal S1x1024x8 .f32) (v7 : Vec Ideal S2048x1024 .f32)
    (v8 : Vec Ideal S2048x128 .bf16) (v10 : Vec Ideal S1024x128 .bf16) (v21 : Vec Ideal S2048x128 .bf16)
    (v23 : Vec Ideal S1024x128 .bf16) (p : Fin 2048) (q : Fin 1024) :
    k0_pay4 v3 v5 v7 v8 v10 v21 v23 (ix2 p q)
      = (v7 (ix2 p q) + contrib v8 v10 (k0_pay2 v3) (k0_pay3 v5) 0 p q)
          + contrib v21 v23 (k0_pay2 v3) (k0_pay3 v5) 1 p q := by
  unfold Gen.k0_pay4
  dsimp only
  rw [shapeCast_self v8, shapeCast_self v10, shapeCast_self v21, shapeCast_self v23]
  refine (addf_apply _ _ _).trans ?_
  refine congrArg₂ (· + ·) ((addf_apply _ _ _).trans (congrArg₂ (· + ·) rfl ?_)) ?_
  · exact group_apply v8 v10 (k0_pay2 v3) (k0_pay3 v5) 0 (by decide) _ _ p q
  · exact group_apply v21 v23 (k0_pay2 v3) (k0_pay3 v5) 1 (by decide) _ _ p q

/-- After the next three groups: what was carried in, plus the terms of groups 2, 3 and 4. -/
theorem pay5_apply (v4 : FVec Ideal S2048x8 .f32) (v6 : FVec Ideal S1024x8 .f32) (v33 : FVec Ideal S2048x1024 .f32)
    (v34 : Vec Ideal S2048x128 .bf16) (v36 : Vec Ideal S1024x128 .bf16) (v47 : Vec Ideal S2048x128 .bf16)
    (v49 : Vec Ideal S1024x128 .bf16) (v60 : Vec Ideal S2048x128 .bf16) (v62 : Vec Ideal S1024x128 .bf16)
    (p : Fin 2048) (q : Fin 1024) :
    k0_pay5 v4 v6 v33 v34 v36 v47 v49 v60 v62 (ix2 p q)
      = ((v33 (ix2 p q) + contrib v34 v36 v4 v6 2 p q) + contrib v47 v49 v4 v6 3 p q)
          + contrib v60 v62 v4 v6 4 p q := by
  unfold Gen.k0_pay5
  dsimp only
  rw [shapeCast_self v34, shapeCast_self v36, shapeCast_self v47, shapeCast_self v49, shapeCast_self v60,
    shapeCast_self v62]
  refine (addf_apply _ _ _).trans ?_
  refine congrArg₂ (· + ·) ((addf_apply _ _ _).trans (congrArg₂ (· + ·)
    ((addf_apply _ _ _).trans (congrArg₂ (· + ·) rfl ?_)) ?_)) ?_
  · exact group_apply v34 v36 v4 v6 2 (by decide) _ _ p q
  · exact group_apply v47 v49 v4 v6 3 (by decide) _ _ p q
  · exact group_apply v60 v62 v4 v6 4 (by decide) _ _ p q

/-- A block of activation codes cast to its own shape is itself. -/
theorem pay6_apply (v73 : Vec Ideal S2048x128 .bf16) (y : S2048x128.Idx) : k0_pay6 v73 y = v73 y := by
  unfold Gen.k0_pay6
  exact congrFun (shapeCast_self v73 _) y

/-- A block of weight codes cast to its own shape is itself. -/
theorem pay7_apply (v75 : Vec Ideal S1024x128 .bf16) (y : S1024x128.Idx) : k0_pay7 v75 y = v75 y := by
  unfold Gen.k0_pay7
  exact congrFun (shapeCast_self v75 _) y

/-- After the last three groups: what was carried in, plus the terms of groups 5, 6 and 7. -/
theorem pay8_apply (v4 : FVec Ideal S2048x8 .f32) (v6 : FVec Ideal S1024x8 .f32) (v72 : FVec Ideal S2048x1024 .f32)
    (v74 : FVec Ideal S2048x128 .bf16) (v76 : FVec Ideal S1024x128 .bf16) (v86 : Vec Ideal S2048x128 .bf16)
    (v88 : Vec Ideal S1024x128 .bf16) (v99 : Vec Ideal S2048x128 .bf16) (v101 : Vec Ideal S1024x128 .bf16)
    (p : Fin 2048) (q : Fin 1024) :
    k0_pay8 v4 v6 v72 v74 v76 v86 v88 v99 v101 (ix2 p q)
      = ((v72 (ix2 p q) + contrib v74 v76 v4 v6 5 p q) + contrib v86 v88 v4 v6 6 p q)
          + contrib v99 v101 v4 v6 7 p q := by
  unfold Gen.k0_pay8
  dsimp only
  rw [shapeCast_self v86, shapeCast_self v88, shapeCast_self v99, shapeCast_self v101]
  refine (congrFun (shapeCast_self _ shapeCasts_S2048x1024_S2048x1024) (ix2 p q)).trans ?_
  refine (addf_apply _ _ _).trans ?_
  refine congrArg₂ (· + ·) ((addf_apply _ _ _).trans (congrArg₂ (· + ·)
    ((addf_apply _ _ _).trans (congrArg₂ (· + ·) rfl ?_)) ?_)) ?_
  · exact group_apply v74 v76 v4 v6 5 (by decide) _ _ p q
  · exact group_apply v86 v88 v4 v6 6 (by decide) _ _ p q
  · exact group_apply v99 v101 v4 v6 7 (by decide) _ _ p q

/-- The output: the accumulator plus the bias of the column. -/
theorem pay9_apply (v118 : Vec Ideal S2048x1024 .f32) (v119 : Vec Ideal S1024 .f32) (p : Fin 2048) (q : Fin 1024) :
    k0_pay9 v118 v119 (ix2 p q) = v118 (ix2 p q) + v119 (ix1 q) := by
  unfold Gen.k0_pay9
  refine (addf_apply _ _ _).trans (congrArg₂ (· + ·) rfl ?_)
  refine (Cert.RowBroadcast.broadcastTo_1b_ab_apply _ broadcasts_S1x1024_S2048x1024 p q).trans ?_
  exact Cert.RowCast.shapeCast_row_apply v119 shapeCasts_S1024_S1x1024 0 q

end Cert.KernelPayloads

end
-- ==== Proof.StepValue.lean ====
/-
  One grid point's update of the accumulator, read at an entry.

  Entry (p, q) of the updated accumulator is the old entry plus, for each of the eight lane groups g of the point's
  tiles, the sum over the group's 128 lanes of (activation code at (p, lane)) · (weight code at (q, lane)), times
  (activation scale at (p, g)) · (weight scale at (q, g)) — added in the order g = 0, 1, …, 7.
-/
import proofs.«119646_j76888504533247_2_alg».proof.Proof.Pieces
import proofs.«119646_j76888504533247_2_alg».proof.Proof.Payloads

set_option maxRecDepth 16384

noncomputable section

open Idealize.ShloMosaic Idealize.ShloMosaic.TcCoe Idealize.SL.Sem Idealize.ShloMosaic.ValueIdx

namespace Cert.KernelIdeal.Step

open Cert.KernelIdeal Cert.KernelIdeal.Gen Cert.KernelIdeal.Pieces Cert.KernelPayloads

/-- Lane `j` of lane group `g` of a tile 1024 lanes wide. -/
def lane (g : Fin 8) (j : Fin 128) : Fin 1024 := ⟨g.val * 128 + j.val, by have := g.isLt; have := j.isLt; omega⟩

/-- Lane group `g`'s term at entry (p, q), from the point's four tiles. -/
def grp (x0 : Vec Ideal S2048x1024 .bf16) (x1 : Vec Ideal S1024x1024 .bf16) (x2 : Vec Ideal S1x2048x8 .f32)
    (x3 : Vec Ideal S1x1024x8 .f32) (g : Fin 8) (p : Fin 2048) (q : Fin 1024) : Ideal .f32 :=
  (∑ j : Fin 128, x0 (ix2 p (lane g j)) * x1 (ix2 q (lane g j))) * (x2 (ix3 (0 : Fin 1) p g) * x3 (ix3 (0 : Fin 1) q g))

/-- The 128 lanes from offset `o = g · 128` of the activation-code tile. -/
theorem ld_x (x0 : Vec Ideal S2048x1024 .bf16) (g : Fin 8) (o : ℕ) (ho : o = g.val * 128)
    (inb : ∀ a, (![0, o] : Fin 2 → ℕ) a + (![2048, 128] : Fin 2 → ℕ) a ≤ S2048x1024.size a) (p : Fin 2048) (j : Fin 128) :
    View.ld x0 (Rect.unit ![0, o] ![2048, 128] inb) (ix2 p j) = x0 (ix2 p (lane g j)) := by
  subst ho
  show x0 _ = x0 _
  refine congrArg x0 (funext fun a => Fin.ext ?_)
  match a with
  | ⟨0, _⟩ => show 0 + 1 * p.val = p.val; omega
  | ⟨1, _⟩ => show g.val * 128 + 1 * j.val = g.val * 128 + j.val; omega

/-- The 128 lanes from offset `o = g · 128` of the weight-code tile. -/
theorem ld_w (x1 : Vec Ideal S1024x1024 .bf16) (g : Fin 8) (o : ℕ) (ho : o = g.val * 128)
    (inb : ∀ a, (![0, o] : Fin 2 → ℕ) a + (![1024, 128] : Fin 2 → ℕ) a ≤ S1024x1024.size a) (q : Fin 1024) (j : Fin 128) :
    View.ld x1 (Rect.unit ![0, o] ![1024, 128] inb) (ix2 q j) = x1 (ix2 q (lane g j)) := by
  subst ho
  show x1 _ = x1 _
  refine congrArg x1 (funext fun a => Fin.ext ?_)
  match a with
  | ⟨0, _⟩ => show 0 + 1 * q.val = q.val; omega
  | ⟨1, _⟩ => show g.val * 128 + 1 * j.val = g.val * 128 + j.val; omega

/-- A group's term as the body computes it from its loads is that group's term of the tiles. -/
theorem contrib_ld (x0 : Vec Ideal S2048x1024 .bf16) (x1 : Vec Ideal S1024x1024 .bf16) (x2 : Vec Ideal S1x2048x8 .f32)
    (x3 : Vec Ideal S1x1024x8 .f32) (g : Fin 8) (o : ℕ) (ho : o = g.val * 128)
    (inbx : ∀ a, (![0, o] : Fin 2 → ℕ) a + (![2048, 128] : Fin 2 → ℕ) a ≤ S2048x1024.size a)
    (inbw : ∀ a, (![0, o] : Fin 2 → ℕ) a + (![1024, 128] : Fin 2 → ℕ) a ≤ S1024x1024.size a) (p : Fin 2048) (q : Fin 1024) :
    contrib (View.ld x0 (Rect.unit ![0, o] ![2048, 128] inbx)) (View.ld x1 (Rect.unit ![0, o] ![1024, 128] inbw))
        (k0_pay2 x2) (k0_pay3 x3) g p q = grp x0 x1 x2 x3 g p q := by
  unfold contrib grp
  refine congrArg₂ (· * ·) (Finset.sum_congr rfl fun j _ => ?_) (congrArg₂ (· * ·) (pay2_apply x2 p g) (pay3_apply x3 q g))
  exact congrArg₂ (· * ·) (ld_x x0 g o ho inbx p j) (ld_w x1 g o ho inbw q j)

theorem pay6_eq (v : Vec Ideal S2048x128 .bf16) : k0_pay6 v = v := funext (pay6_apply v)
theorem pay7_eq (v : Vec Ideal S1024x128 .bf16) : k0_pay7 v = v := funext (pay7_apply v)

/-- THE UPDATE AT AN ENTRY: the old entry plus the eight groups' terms, in order. -/
theorem accStep_apply (acc : Vec Ideal S2048x1024 .f32) (x0 : Vec Ideal S2048x1024 .bf16) (x1 : Vec Ideal S1024x1024 .bf16)
    (x2 : Vec Ideal S1x2048x8 .f32) (x3 : Vec Ideal S1x1024x8 .f32) (p : Fin 2048) (q : Fin 1024) :
    accStep acc x0 x1 x2 x3 (ix2 p q)
      = (((((((acc (ix2 p q) + grp x0 x1 x2 x3 0 p q) + grp x0 x1 x2 x3 1 p q) + grp x0 x1 x2 x3 2 p q)
          + grp x0 x1 x2 x3 3 p q) + grp x0 x1 x2 x3 4 p q) + grp x0 x1 x2 x3 5 p q) + grp x0 x1 x2 x3 6 p q)
          + grp x0 x1 x2 x3 7 p q := by
  unfold accStep
  rw [pay6_eq, pay7_eq]
  refine (pay8_apply _ _ _ _ _ _ _ _ _ p q).trans ?_
  rw [pay5_apply, pay4_apply]
  rw [contrib_ld x0 x1 x2 x3 0 0 rfl, contrib_ld x0 x1 x2 x3 1 128 rfl, contrib_ld x0 x1 x2 x3 2 256 rfl,
    contrib_ld x0 x1 x2 x3 3 384 rfl, contrib_ld x0 x1 x2 x3 4 512 rfl, contrib_ld x0 x1 x2 x3 5 640 rfl,
    contrib_ld x0 x1 x2 x3 6 768 rfl, contrib_ld x0 x1 x2 x3 7 896 rfl]

end Cert.KernelIdeal.Step

end
-- ==== Proof.Spec.lean ====
/-
  The mathematics of the quantised linear layer, stated once over the extended reals.

  A row of 4096 numbers is cut into 32 groups of 128.  For a group `f`:
    * `amax f`  is the largest magnitude in the group (a maximum started at -∞);
    * `scale q f` is `amax f / q`, replaced by 1 when that quotient is 0;
    * `code nq q f j` is `f j / scale q f` rounded to the nearest integer (ties to even) and clamped to [nq, q].
  The activations use q = 127 and the weights q = 7.  The layer's value at row `r` of the activations and
  row `o` of the weights is the sum over the 4096 places of (code · scale) of the activation times
  (code · scale) of the weight, plus the bias; grouped, it is the sum over the 32 groups of the integer
  dot product of the two groups' codes times the product of the two groups' scales, plus the bias.
-/
import Idealize.ShloMosaic.PureOps.Ideal
import Idealize.ShloMosaic.PureOps.Ideal.Laws
import Idealize.ShloMosaic.Lib.ValueIdx

noncomputable section

namespace Cert.QuantSpec

open Idealize.ShloMosaic Idealize.ShloMosaic.ValueIdx

/-- The shapes of the three arguments and of the flattened activations. -/
abbrev SX : Shape := ⟨3, ![4, 2048, 4096]⟩
abbrev SW : Shape := ⟨2, ![4096, 4096]⟩
abbrev SB : Shape := ⟨1, ![4096]⟩

/-- The literals of both programs, as the extended reals their words denote. -/
def negInf : Ideal .f32 := FloatOps.ofBits (F := Ideal) .f32 0xFF800000#32
def zero : Ideal .f32 := FloatOps.ofBits (F := Ideal) .f32 0x00000000#32
def one : Ideal .f32 := FloatOps.ofBits (F := Ideal) .f32 0x3F800000#32
/-- 127 and -127: the int8 range of the activations' codes. -/
def qA : Ideal .f32 := FloatOps.ofBits (F := Ideal) .f32 0x42FE0000#32
def nqA : Ideal .f32 := FloatOps.ofBits (F := Ideal) .f32 0xC2FE0000#32
/-- 7 and -7: the int4 range of the weights' codes. -/
def qW : Ideal .f32 := FloatOps.ofBits (F := Ideal) .f32 0x40E00000#32
def nqW : Ideal .f32 := FloatOps.ofBits (F := Ideal) .f32 0xC0E00000#32

/-- The largest magnitude of a group: the maximum of |f j| over the 128 places, started at -∞. -/
def amax (f : Fin 128 → Ideal .f32) : Ideal .f32 :=
  (Finset.univ : Finset (Fin 128)).fold (FloatOps.maximumf (F := Ideal) (φ := .f32)) negInf
    (fun j => FloatOps.hostAbsf (F := Ideal) (f j))

/-- The group's scale: `amax f / q`, or 1 where that is 0. -/
def scale (q : Ideal .f32) (f : Fin 128 → Ideal .f32) : Ideal .f32 :=
  Scalar.select (FloatOps.cmpf (F := Ideal) .oeq (FloatOps.hostDivf (amax f) q) zero) one (FloatOps.hostDivf (amax f) q)

/-- The group's code at place `j`: `f j / scale`, rounded to even, clamped to [nq, q]. -/
def code (nq q : Ideal .f32) (f : Fin 128 → Ideal .f32) (j : Fin 128) : Ideal .f32 :=
  FloatOps.minimumf q (FloatOps.maximumf nq (FloatOps.hostUnary .roundeven (FloatOps.hostDivf (f j) (scale q f))))

/-- Place `j` of group `g` of a row of 4096. -/
def place (g : Fin 32) (j : Fin 128) : Fin 4096 := ⟨g.val * 128 + j.val, by have := g.isLt; have := j.isLt; omega⟩

/-- Row `r` (of the 8192 = 4 · 2048 rows) of the activations, group `g`. -/
def xg (X : SX.Idx → Ideal .f32) (r : Fin 8192) (g : Fin 32) : Fin 128 → Ideal .f32 :=
  fun j => X (ix3 (⟨r.val / 2048, by have := r.isLt; omega⟩ : Fin 4) (⟨r.val % 2048, Nat.mod_lt _ (by decide)⟩ : Fin 2048) (place g j))

/-- Row `o` of the weights, group `g`. -/
def wg (W : SW.Idx → Ideal .f32) (o : Fin 4096) (g : Fin 32) : Fin 128 → Ideal .f32 :=
  fun j => W (ix2 o (place g j))

/-- The activations' code and scale, and the weights'. -/
def xcode (X : SX.Idx → Ideal .f32) (r : Fin 8192) (g : Fin 32) (j : Fin 128) : Ideal .f32 := code nqA qA (xg X r g) j
def xscale (X : SX.Idx → Ideal .f32) (r : Fin 8192) (g : Fin 32) : Ideal .f32 := scale qA (xg X r g)
def wcode (W : SW.Idx → Ideal .f32) (o : Fin 4096) (g : Fin 32) (j : Fin 128) : Ideal .f32 := code nqW qW (wg W o g) j
def wscale (W : SW.Idx → Ideal .f32) (o : Fin 4096) (g : Fin 32) : Ideal .f32 := scale qW (wg W o g)

/-- One group's term: the dot product of the two groups' codes, times the product of their scales. -/
def term (X : SX.Idx → Ideal .f32) (W : SW.Idx → Ideal .f32) (r : Fin 8192) (o : Fin 4096) (g : Fin 32) : Ideal .f32 :=
  (∑ j : Fin 128, xcode X r g j * wcode W o g j) * (xscale X r g * wscale W o g)

/-- THE GROUPED FORM: entry (r, o) of the [8192, 4096] product, as the sum of the 32 group terms plus the bias. -/
def grouped (X : SX.Idx → Ideal .f32) (W : SW.Idx → Ideal .f32) (B : SB.Idx → Ideal .f32) (r : Fin 8192) (o : Fin 4096) : Ideal .f32 :=
  (∑ g : Fin 32, term X W r o g) + B (ix1 o)

/-- The row of the flattened activations that entry (b, s) of the [4, 2048] leading axes is. -/
def rowOf (b : Fin 4) (s : Fin 2048) : Fin 8192 := ⟨b.val * 2048 + s.val, by have := b.isLt; have := s.isLt; omega⟩

/-- THE RESULT both programs end with: entry (b, s, o) is the grouped form at row b·2048 + s. -/
def result (X : SX.Idx → Ideal .f32) (W : SW.Idx → Ideal .f32) (B : SB.Idx → Ideal .f32) : SX.Idx → Ideal .f32 :=
  fun i => grouped X W B (rowOf (i 0) (i 1)) (i 2)

/-- THE PLACEWISE FORM: entry (b, s, o) as the sum over the 4096 places of the dequantised activation
    (code · scale) times the dequantised weight, plus the bias. -/
def placewise (X : SX.Idx → Ideal .f32) (W : SW.Idx → Ideal .f32) (B : SB.Idx → Ideal .f32) : SX.Idx → Ideal .f32 :=
  fun i => (∑ k : Fin 4096,
      (xcode X (rowOf (i 0) (i 1)) ⟨k.val / 128, by have := k.isLt; omega⟩ ⟨k.val % 128, Nat.mod_lt _ (by decide)⟩
        * xscale X (rowOf (i 0) (i 1)) ⟨k.val / 128, by have := k.isLt; omega⟩)
      * (wcode W (i 2) ⟨k.val / 128, by have := k.isLt; omega⟩ ⟨k.val % 128, Nat.mod_lt _ (by decide)⟩
        * wscale W (i 2) ⟨k.val / 128, by have := k.isLt; omega⟩))
    + B (ix1 (i 2))

/-- Every entry of an array is a real number. -/
def Finite {S : Shape} (A : S.Idx → Ideal .f32) : Prop := ∀ i, ∃ a : ℝ, A i = (a : EReal)

end Cert.QuantSpec

end
-- ==== Proof.GridValue.lean ====
/-
  The accumulator across the grid, and what the last reduction step writes out.

  With the reduction step fastest, the four points t = 4a, 4a+1, 4a+2, 4a+3 share one output tile; the
  accumulator is zeroed at the first and carried to the last.  After the point with reduction step k the
  accumulator's entry (p, q) is the sum of the first 8·(k+1) of the 32 group terms of the entry's row and
  column — by induction on the point — and at k = 3 the output tile's entry is all 32 terms plus the bias:
  the grouped form of the layer.
-/
import proofs.«119646_j76888504533247_2_alg».proof.Proof.BlockReads
import proofs.«119646_j76888504533247_2_alg».proof.Proof.StepValue
import proofs.«119646_j76888504533247_2_alg».proof.Proof.Spec

set_option maxRecDepth 16384

noncomputable section

open Idealize.ShloMosaic Idealize.ShloMosaic.TcCoe Idealize.SL.Sem Idealize.ShloMosaic.ValueIdx

namespace Cert.KernelIdeal.Grid

open Cert.KernelIdeal Cert.KernelIdeal.Gen Cert.KernelIdeal.Blocks Cert.KernelIdeal.Step Cert.KernelIdeal.Pieces
open Cert.QuantSpec Cert.KernelPayloads

variable (m : (ℓ : Loc nD τ sig) → Buf (Elt Ideal) ℓ) (c : Dev nD)

/-! ## What each control case leaves, at a grid point -/

/-- First reduction step: the update of the zero accumulator. -/
theorem acc_A (t : Fin cfg0.N) (h0 : t.val % 4 = 0) (h1 : ¬t.val % 4 = 3) :
    (outsAt0 m c t.val t.isLt).2 = accStep k0_pay1 (iblk m c 0 t) (iblk m c 1 t) (iblk m c 2 t) (iblk m c 3 t) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- A middle reduction step: the update of what the point before left. -/
theorem acc_B (t : Fin cfg0.N) (h0 : ¬t.val % 4 = 0) (h1 : ¬t.val % 4 = 3) :
    (outsAt0 m c t.val t.isLt).2
      = accStep (outsAt0 m c (t.val - 1) (Nat.lt_of_le_of_lt (Nat.sub_le _ _) t.isLt)).2 (iblk m c 0 t) (iblk m c 1 t) (iblk m c 2 t) (iblk m c 3 t) := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) _

/-- The last reduction step: the same update … -/
theorem acc_C (t : Fin cfg0.N) (h0 : ¬t.val % 4 = 0) (h1 : t.val % 4 = 3) :
    (outsAt0 m c t.val t.isLt).2
      = accStep (outsAt0 m c (t.val - 1) (Nat.lt_of_le_of_lt (Nat.sub_le _ _) t.isLt)).2 (iblk m c 0 t) (iblk m c 1 t) (iblk m c 2 t) (iblk m c 3 t) := by
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) _

/-- … and the output tile at the updated accumulator plus the bias tile. -/
theorem out_last (t : Fin cfg0.N) (h0 : ¬t.val % 4 = 0) (h1 : t.val % 4 = 3) :
    (outsAt0 m c t.val t.isLt).1
      = k0_pay9 (accStep (outsAt0 m c (t.val - 1) (Nat.lt_of_le_of_lt (Nat.sub_le _ _) t.isLt)).2 (iblk m c 0 t) (iblk m c 1 t) (iblk m c 2 t) (iblk m c 3 t)) (iblk m c 4 t) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) _

/-! ## The running sum of group terms -/

/-- Group term number `G` of row `r` and column `o` (zero past the 32 groups). -/
def termN (r : Fin 8192) (o : Fin 4096) (G : ℕ) : Ideal .f32 :=
  if h : G < 32 then term (V m c main_arg0) (V m c main_arg1) r o ⟨G, h⟩ else 0

theorem termN_lt (r : Fin 8192) (o : Fin 4096) (G : ℕ) (h : G < 32) :
    termN m c r o G = term (V m c main_arg0) (V m c main_arg1) r o ⟨G, h⟩ := dif_pos h

/-- Eight more terms appended to a running sum. -/
theorem chain8 (f : ℕ → Ideal .f32) (a : Ideal .f32) (K : ℕ) (ha : a = ∑ G ∈ Finset.range K, f G) :
    (((((((a + f K) + f (K + 1)) + f (K + 2)) + f (K + 3)) + f (K + 4)) + f (K + 5)) + f (K + 6)) + f (K + 7)
      = ∑ G ∈ Finset.range (K + 8), f G := by
  subst ha
  rw [show K + 8 = K + 7 + 1 from rfl, Finset.sum_range_succ, show K + 7 = K + 6 + 1 from rfl, Finset.sum_range_succ,
    show K + 6 = K + 5 + 1 from rfl, Finset.sum_range_succ, show K + 5 = K + 4 + 1 from rfl, Finset.sum_range_succ,
    show K + 4 = K + 3 + 1 from rfl, Finset.sum_range_succ, show K + 3 = K + 2 + 1 from rfl, Finset.sum_range_succ,
    show K + 2 = K + 1 + 1 from rfl, Finset.sum_range_succ, Finset.sum_range_succ]

/-- All 32 terms, as the sum over the groups. -/
theorem sum_all (r : Fin 8192) (o : Fin 4096) :
    ∑ G ∈ Finset.range 32, termN m c r o G = ∑ g : Fin 32, term (V m c main_arg0) (V m c main_arg1) r o g := by
  rw [Finset.sum_range]
  exact Finset.sum_congr rfl fun g _ => termN_lt m c r o g.val g.isLt

/-- The point update over any four tiles whose eight lane groups are terms K, K+1, …, K+7 of a sequence `f`:
    it appends those eight terms to the running sum. -/
theorem step_vars (x0 : Vec Ideal S2048x1024 .bf16) (x1 : Vec Ideal S1024x1024 .bf16) (x2 : Vec Ideal S1x2048x8 .f32)
    (x3 : Vec Ideal S1x1024x8 .f32) (acc : Vec Ideal S2048x1024 .f32) (p : Fin 2048) (q : Fin 1024) (f : ℕ → Ideal .f32) (K : ℕ)
    (hg : ∀ (g : Fin 8) (k : ℕ), k = g.val → grp x0 x1 x2 x3 g p q = f (K + k))
    (hacc : acc (ix2 p q) = ∑ G ∈ Finset.range K, f G) :
    accStep acc x0 x1 x2 x3 (ix2 p q) = ∑ G ∈ Finset.range (K + 8), f G := by
  rw [accStep_apply, hg 0 0 rfl, hg 1 1 rfl, hg 2 2 rfl, hg 3 3 rfl, hg 4 4 rfl, hg 5 5 rfl, hg 6 6 rfl, hg 7 7 rfl]
  exact chain8 f _ K hacc

/-- The group identity at a point, as a hypothesis: lane group `g` of the point's tiles is group
    `(t % 4)·8 + g` of the entry's row and column. -/
def GroupsAt : Prop := ∀ (t : Fin cfg0.N) (g : Fin 8) (p : Fin 2048) (q : Fin 1024),
    grp (iblk m c 0 t) (iblk m c 1 t) (iblk m c 2 t) (iblk m c 3 t) g p q
      = term (V m c main_arg0) (V m c main_arg1) (rowAt t p) (colAt t q) ⟨t.val % 4 * 8 + g.val, by have := g.isLt; omega⟩

variable (hgrp : GroupsAt m c)
include hgrp

theorem grp_termN (t : Fin cfg0.N) (p : Fin 2048) (q : Fin 1024) (g : Fin 8) (k : ℕ) (hk : k = g.val) :
    grp (iblk m c 0 t) (iblk m c 1 t) (iblk m c 2 t) (iblk m c 3 t) g p q = termN m c (rowAt t p) (colAt t q) (8 * (t.val % 4) + k) := by
  subst hk
  rw [hgrp t g p q, termN_lt m c _ _ _ (by have := g.isLt; omega)]
  exact congrArg _ (Fin.ext (by show t.val % 4 * 8 + g.val = 8 * (t.val % 4) + g.val; omega))

/-- One point's update turns the sum of the first 8k terms into the sum of the first 8k + 8. -/
theorem step_at (t : Fin cfg0.N) (acc : Vec Ideal S2048x1024 .f32) (p : Fin 2048) (q : Fin 1024)
    (hacc : acc (ix2 p q) = ∑ G ∈ Finset.range (8 * (t.val % 4)), termN m c (rowAt t p) (colAt t q) G) :
    accStep acc (iblk m c 0 t) (iblk m c 1 t) (iblk m c 2 t) (iblk m c 3 t) (ix2 p q)
      = ∑ G ∈ Finset.range (8 * (t.val % 4) + 8), termN m c (rowAt t p) (colAt t q) G := by
  exact step_vars (iblk m c 0 t) (iblk m c 1 t) (iblk m c 2 t) (iblk m c 3 t) acc p q (termN m c (rowAt t p) (colAt t q)) (8 * (t.val % 4))
    (fun g k hk => grp_termN m c hgrp t p q g k hk) hacc

/-- At a first reduction step the accumulator holds the first eight terms. -/
theorem acc_first (t : Fin cfg0.N) (h0 : t.val % 4 = 0) (p : Fin 2048) (q : Fin 1024) :
    (outsAt0 m c t.val t.isLt).2 (ix2 p q)
      = ∑ G ∈ Finset.range (8 * (t.val % 4) + 8), termN m c (rowAt t p) (colAt t q) G := by
  have h1 : ¬t.val % 4 = 3 := by omega
  refine (congrFun (acc_A m c t h0 h1) (ix2 p q)).trans ?_
  refine step_at m c hgrp t (k0_pay1 (F := Ideal)) p q ?_
  rw [pay1_apply_zero, h0]
  rfl

/-- At a later reduction step it holds eight more than the point before left. -/
theorem acc_next (t : Fin cfg0.N) (h0 : ¬t.val % 4 = 0) (p : Fin 2048) (q : Fin 1024)
    (hprev : (outsAt0 m c (t.val - 1) (Nat.lt_of_le_of_lt (Nat.sub_le _ _) t.isLt)).2 (ix2 p q)
      = ∑ G ∈ Finset.range (8 * (t.val % 4)), termN m c (rowAt t p) (colAt t q) G) :
    (outsAt0 m c t.val t.isLt).2 (ix2 p q)
      = ∑ G ∈ Finset.range (8 * (t.val % 4) + 8), termN m c (rowAt t p) (colAt t q) G := by
  by_cases h1 : t.val % 4 = 3
  · refine (congrFun (acc_C m c t h0 h1) (ix2 p q)).trans ?_
    exact step_at m c hgrp t _ p q hprev
  · refine (congrFun (acc_B m c t h0 h1) (ix2 p q)).trans ?_
    exact step_at m c hgrp t _ p q hprev

/-- THE INVARIANT: after point `n` the accumulator's entry (p, q) is the sum of the first 8·(n % 4) + 8 group terms. -/
theorem acc_eq (n : ℕ) : ∀ (hn : n < cfg0.N) (p : Fin 2048) (q : Fin 1024),
    (outsAt0 m c n hn).2 (ix2 p q)
      = ∑ G ∈ Finset.range (8 * (n % 4) + 8), termN m c (rowAt ⟨n, hn⟩ p) (colAt ⟨n, hn⟩ q) G := by
  induction n using Nat.strong_induction_on with
  | _ n ih =>
    intro hn p q
    by_cases h0 : n % 4 = 0
    · exact acc_first m c hgrp ⟨n, hn⟩ h0 p q
    · have hlt : n - 1 < n := by omega
      have hprev := ih (n - 1) hlt (Nat.lt_of_le_of_lt (Nat.sub_le _ _) hn) p q
      have hr : rowAt (⟨n - 1, Nat.lt_of_le_of_lt (Nat.sub_le _ _) hn⟩ : Fin cfg0.N) p = rowAt ⟨n, hn⟩ p :=
        Fin.ext (by show (n - 1) / 16 * 2048 + p.val = n / 16 * 2048 + p.val; omega)
      have hc : colAt (⟨n - 1, Nat.lt_of_le_of_lt (Nat.sub_le _ _) hn⟩ : Fin cfg0.N) q = colAt ⟨n, hn⟩ q :=
        Fin.ext (by show (n - 1) / 4 % 4 * 1024 + q.val = n / 4 % 4 * 1024 + q.val; omega)
      have hK : 8 * ((n - 1) % 4) + 8 = 8 * (n % 4) := by omega
      rw [hr, hc, hK] at hprev
      exact acc_next m c hgrp ⟨n, hn⟩ h0 p q hprev

/-- THE OUTPUT TILE at a last reduction step: entry (p, q) is the grouped form of the layer at the entry's row and column. -/
theorem out_eq (t : Fin cfg0.N) (h1 : t.val % 4 = 3) (p : Fin 2048) (q : Fin 1024) :
    (outsAt0 m c t.val t.isLt).1 (ix2 p q)
      = grouped (V m c main_arg0) (V m c main_arg1) (V m c main_arg2) (rowAt t p) (colAt t q) := by
  have h0 : ¬t.val % 4 = 0 := by omega
  have hacc : accStep (outsAt0 m c (t.val - 1) (Nat.lt_of_le_of_lt (Nat.sub_le _ _) t.isLt)).2 (iblk m c 0 t) (iblk m c 1 t) (iblk m c 2 t) (iblk m c 3 t) (ix2 p q)
      = ∑ G ∈ Finset.range (8 * (t.val % 4) + 8), termN m c (rowAt t p) (colAt t q) G :=
    (congrFun (acc_C m c t h0 h1) (ix2 p q)).symm.trans (acc_eq m c hgrp t.val t.isLt p q)
  rw [h1] at hacc
  refine (congrFun (out_last m c t h0 h1) (ix2 p q)).trans ?_
  rw [pay9_apply, hacc, iblk4_apply]
  show (∑ G ∈ Finset.range 32, termN m c (rowAt t p) (colAt t q) G) + _ = _
  rw [sum_all m c]
  rfl

end Cert.KernelIdeal.Grid

end
-- ==== Proof.KernelHost.lean ====
/-
  The quantisation the program does on the host before its tiled product, read entry by entry.

  Both arguments are cut into groups of 128 along the last axis (the activations after their two leading axes are
  merged into 8192 rows). For each group the host takes the largest magnitude (a maximum started at -∞), divides it
  by the range bound (127 for the activations, 7 for the weights), replaces a zero quotient by 1 — the group's scale —,
  divides the group by its scale, rounds to the nearest integer (ties to even) and clamps to the range — the codes.
  The codes are flattened back to rows of 4096 and narrowed (exactly, over the extended reals); the scales
  [rows, 32, 1] are reshaped to [rows, 4, 8] and transposed to [4, rows, 8]. The four theorems at the end say that
  the arrays found when the tiled product starts hold, at every index, the specification's `xcode`, `wcode`,
  `xscale` and `wscale` of the arguments.

  The operations are stated once for `n` rows (`kamax` … `kscales`), read at an index there, and used at
  n = 8192 and n = 4096.
-/
import proofs.«119646_j76888504533247_2_alg».proof.Proof.Spec
import proofs.«119646_j76888504533247_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelHost

open Cert.KernelIdeal Cert.KernelIdeal.Gen Cert.QuantSpec Idealize.ShloMosaic Idealize.ShloMosaic.ValueIdx
open Idealize.ShloMosaic.StableHlo Idealize.ShloMosaic.TcCoe

variable (m : (ℓ : Loc nD τ sig) → Buf (Elt Ideal) ℓ) (c : Dev nD)

/-! ## The operations on an array of `n` rows, each cut into 32 groups of 128 -/

/-- The shape relations the operations on `n` rows of 32 groups of 128 ask for. -/
structure Rel (n : Nat) : Prop where
  red : (⟨3, ![n, 32, 128]⟩ : Shape).ReducesTo [2] (⟨2, ![n, 32]⟩ : Shape)
  red' : (⟨3, ![n, 32, 128]⟩ : Shape).Reduces [2] (⟨2, ![n, 32]⟩ : Shape)
  hu : 0 < S_.numel
  b01 : (⟨2, ![n, 32]⟩ : Shape).BroadcastsInDim (⟨3, ![n, 32, 1]⟩ : Shape) (![0, 1] : Fin 2 → Fin 3)
  b1 : S_.BroadcastsInDim (⟨3, ![n, 32, 1]⟩ : Shape) (![] : Fin 0 → Fin 3)
  b012 : (⟨3, ![n, 32, 1]⟩ : Shape).BroadcastsInDim (⟨3, ![n, 32, 128]⟩ : Shape) (![0, 1, 2] : Fin 3 → Fin 3)
  b128 : S_.BroadcastsInDim (⟨3, ![n, 32, 128]⟩ : Shape) (![] : Fin 0 → Fin 3)
  flat : (⟨3, ![n, 32, 128]⟩ : Shape).ShapeCasts (⟨2, ![n, 4096]⟩ : Shape)
  sq : (⟨3, ![n, 32, 1]⟩ : Shape).ShapeCasts (⟨2, ![n, 32]⟩ : Shape)
  split : (⟨2, ![n, 32]⟩ : Shape).ShapeCasts (⟨3, ![n, 4, 8]⟩ : Shape)
  tr : (⟨3, ![n, 4, 8]⟩ : Shape).Transposes [1, 0, 2] (⟨3, ![4, n, 8]⟩ : Shape)

theorem rel8192 : Rel 8192 := ⟨by decide, by decide, by decide, by decide, by decide, by decide, by decide, by decide, by decide, by decide, by decide⟩
theorem rel4096 : Rel 4096 := ⟨by decide, by decide, by decide, by decide, by decide, by decide, by decide, by decide, by decide, by decide, by decide⟩

section Rows

variable {n : Nat} (R : Rel n) (qb nqb : BitVec 32)

/-- Each group's largest magnitude: the maximum, started at -∞, of the absolute values along the last axis. -/
def kamax (G : FVec Ideal ⟨3, ![n, 32, 128]⟩ .f32) : FVec Ideal ⟨2, ![n, 32]⟩ .f32 :=
  Host.reduce (FloatOps.maximumf (F := Ideal) (φ := .f32)) (Host.absf G) (constant (F := Ideal) S_ .f32 0xFF800000#32) R.red R.hu

/-- Each group's largest magnitude over the range bound `qb`. -/
def kquot (G : FVec Ideal ⟨3, ![n, 32, 128]⟩ .f32) : FVec Ideal ⟨3, ![n, 32, 1]⟩ .f32 :=
  Host.divf (broadcastInDim (⟨3, ![n, 32, 1]⟩ : Shape) ![0, 1] R.b01 (kamax R G))
    (broadcastInDim (⟨3, ![n, 32, 1]⟩ : Shape) ![] R.b1 (constant (F := Ideal) S_ .f32 qb))

/-- Each group's scale: the quotient, or 1 where it is 0. -/
def kscale (G : FVec Ideal ⟨3, ![n, 32, 128]⟩ .f32) : FVec Ideal ⟨3, ![n, 32, 1]⟩ .f32 :=
  select (cmpf .oeq (kquot R qb G) (broadcastInDim (⟨3, ![n, 32, 1]⟩ : Shape) ![] R.b1 (constant (F := Ideal) S_ .f32 0x00000000#32)))
    (broadcastInDim (⟨3, ![n, 32, 1]⟩ : Shape) ![] R.b1 (constant (F := Ideal) S_ .f32 0x3F800000#32)) (kquot R qb G)

/-- The codes, grouped: each entry over its group's scale, rounded to even, clamped to [nqb, qb]. -/
def kcode (G : FVec Ideal ⟨3, ![n, 32, 128]⟩ .f32) : FVec Ideal ⟨3, ![n, 32, 128]⟩ .f32 :=
  minimumf (broadcastInDim (⟨3, ![n, 32, 128]⟩ : Shape) ![] R.b128 (constant (F := Ideal) S_ .f32 qb))
    (maximumf (broadcastInDim (⟨3, ![n, 32, 128]⟩ : Shape) ![] R.b128 (constant (F := Ideal) S_ .f32 nqb))
      (Host.roundeven (Host.divf G (broadcastInDim (⟨3, ![n, 32, 128]⟩ : Shape) ![0, 1, 2] R.b012 (kscale R qb G)))))

/-- The codes as the region's window finds them: rows of 4096, in the narrow format. -/
def kcodes (G : FVec Ideal ⟨3, ![n, 32, 128]⟩ .f32) : FVec Ideal ⟨2, ![n, 4096]⟩ .bf16 :=
  truncf .bf16 (shapeCast (⟨2, ![n, 4096]⟩ : Shape) (kcode R qb nqb G) R.flat) bitsLt_bf16_f32

/-- The scales as the region's window finds them: [n, 32, 1] → [n, 32] → [n, 4, 8] → [4, n, 8]. -/
def kscales (G : FVec Ideal ⟨3, ![n, 32, 128]⟩ .f32) : FVec Ideal ⟨3, ![4, n, 8]⟩ .f32 :=
  transpose (⟨3, ![4, n, 8]⟩ : Shape) [1, 0, 2]
    (shapeCast (⟨3, ![n, 4, 8]⟩ : Shape) (shapeCast (⟨2, ![n, 32]⟩ : Shape) (kscale R qb G) R.sq) R.split) R.tr

end Rows

/-- The activations as rows of groups: [4, 2048, 4096] → [8192, 4096] → [8192, 32, 128]. -/
def kxg (X : FVec Ideal S4x2048x4096 .f32) : FVec Ideal ⟨3, ![8192, 32, 128]⟩ .f32 :=
  shapeCast S8192x32x128 (shapeCast S8192x4096 X shapeCasts_S4x2048x4096_S8192x4096) shapeCasts_S8192x4096_S8192x32x128

/-- The weights as rows of groups: [4096, 4096] → [4096, 32, 128]. -/
def kwg (W : FVec Ideal S4096x4096 .f32) : FVec Ideal ⟨3, ![4096, 32, 128]⟩ .f32 :=
  shapeCast S4096x32x128 W shapeCasts_S4096x4096_S4096x32x128

/-! ## The operations read at an index -/

/-- A broadcast scalar constant reads its value everywhere. -/
theorem bconst_apply {t : Shape} (h : S_.BroadcastsInDim t (![] : Fin 0 → Fin t.rank)) (φ : FTy) (b : BitVec φ.bits) (j : t.Idx) :
    broadcastInDim t ![] h (constant (F := Ideal) S_ φ b) j = FloatOps.ofBits (F := Ideal) φ b :=
  broadcastInDim_apply _ h (constant (F := Ideal) S_ φ b) j ix0 (fun a => a.elim0)

section Rows

variable {n : Nat} (R : Rel n) (qb nqb : BitVec 32)

/-- The reduced index (r, g) with place `k` put back on the last axis is (r, g, k). -/
theorem lift_ix3 (r : Fin n) (g : Fin 32) (k : Fin ((⟨3, ![n, 32, 128]⟩ : Shape).size 2)) :
    R.red'.lift (ix2 r g) k = ix3 r g (⟨k.val, k.isLt⟩ : Fin 128) := by
  funext c; apply Fin.ext
  fin_cases c <;> rfl

/-- The largest magnitude of group (r, g). -/
theorem kamax_apply (G : FVec Ideal ⟨3, ![n, 32, 128]⟩ .f32) (r : Fin n) (g : Fin 32) :
    kamax R G (ix2 r g) = amax fun j => G (ix3 r g j) := by
  unfold kamax
  rw [Host.reduce_eq_fold_single (FloatOps.maximumf (F := Ideal) (φ := .f32)) (Host.absf G) _ R.red R.red' R.hu]
  have hf : (Host.absf G ∘ R.red'.lift (ix2 r g)) = fun k : Fin 128 => FloatOps.hostAbsf (F := Ideal) (G (ix3 r g k)) :=
    funext fun k => congrArg (fun i => FloatOps.hostAbsf (F := Ideal) (G i)) (lift_ix3 R r g k)
  unfold amax
  exact congrArg (fun f => Finset.fold (FloatOps.maximumf (F := Ideal) (φ := .f32)) negInf f (Finset.univ : Finset (Fin 128))) hf

/-- The quotient of group (r, g). -/
theorem kquot_apply (G : FVec Ideal ⟨3, ![n, 32, 128]⟩ .f32) (r : Fin n) (g : Fin 32) (z : Fin 1) :
    kquot R qb G (ix3 r g z) = FloatOps.hostDivf (amax fun j => G (ix3 r g j)) (FloatOps.ofBits (F := Ideal) .f32 qb) := by
  show FloatOps.hostDivf (broadcastInDim (⟨3, ![n, 32, 1]⟩ : Shape) ![0, 1] R.b01 (kamax R G) (ix3 r g z))
    (broadcastInDim (⟨3, ![n, 32, 1]⟩ : Shape) ![] R.b1 (constant (F := Ideal) S_ .f32 qb) (ix3 r g z)) = _
  rw [bconst_apply, broadcastInDim_apply _ R.b01 (kamax R G) (ix3 r g z) (ix2 r g) (fun a => match a with
    | ⟨0, _⟩ => by
        show r.val = if n = 1 then 0 else r.val
        have := r.isLt
        split <;> omega
    | ⟨1, _⟩ => by show g.val = if (32 : Nat) = 1 then 0 else g.val; rw [if_neg (by decide)]), kamax_apply]

/-- The scale of group (r, g). -/
theorem kscale_apply (G : FVec Ideal ⟨3, ![n, 32, 128]⟩ .f32) (r : Fin n) (g : Fin 32) (z : Fin 1) :
    kscale R qb G (ix3 r g z) = scale (FloatOps.ofBits (F := Ideal) .f32 qb) fun j => G (ix3 r g j) := by
  show Scalar.select (FloatOps.cmpf .oeq (kquot R qb G (ix3 r g z))
      (broadcastInDim (⟨3, ![n, 32, 1]⟩ : Shape) ![] R.b1 (constant (F := Ideal) S_ .f32 0x00000000#32) (ix3 r g z)))
    (broadcastInDim (⟨3, ![n, 32, 1]⟩ : Shape) ![] R.b1 (constant (F := Ideal) S_ .f32 0x3F800000#32) (ix3 r g z)) (kquot R qb G (ix3 r g z)) = _
  rw [bconst_apply, bconst_apply, kquot_apply]
  rfl

/-- The code at place `j` of group (r, g). -/
theorem kcode_apply (G : FVec Ideal ⟨3, ![n, 32, 128]⟩ .f32) (r : Fin n) (g : Fin 32) (j : Fin 128) :
    kcode R qb nqb G (ix3 r g j)
      = code (FloatOps.ofBits (F := Ideal) .f32 nqb) (FloatOps.ofBits (F := Ideal) .f32 qb) (fun j => G (ix3 r g j)) j := by
  show FloatOps.minimumf (broadcastInDim (⟨3, ![n, 32, 128]⟩ : Shape) ![] R.b128 (constant (F := Ideal) S_ .f32 qb) (ix3 r g j))
    (FloatOps.maximumf (broadcastInDim (⟨3, ![n, 32, 128]⟩ : Shape) ![] R.b128 (constant (F := Ideal) S_ .f32 nqb) (ix3 r g j))
      (FloatOps.hostUnary .roundeven (FloatOps.hostDivf (G (ix3 r g j))
        (broadcastInDim (⟨3, ![n, 32, 128]⟩ : Shape) ![0, 1, 2] R.b012 (kscale R qb G) (ix3 r g j))))) = _
  rw [bconst_apply, bconst_apply, broadcastInDim_apply _ R.b012 (kscale R qb G) (ix3 r g j) (ix3 r g (0 : Fin 1)) (fun a => match a with
    | ⟨0, _⟩ => by
        show r.val = if n = 1 then 0 else r.val
        have := r.isLt
        split <;> omega
    | ⟨1, _⟩ => by show g.val = if (32 : Nat) = 1 then 0 else g.val; rw [if_neg (by decide)]
    | ⟨2, _⟩ => by show 0 = if (1 : Nat) = 1 then 0 else j.val; rw [if_pos rfl]), kscale_apply]
  rfl

/-- The staged codes: entry (r, g·128 + j) is the code at place `j` of group (r, g); the narrow format keeps it. -/
theorem kcodes_apply (G : FVec Ideal ⟨3, ![n, 32, 128]⟩ .f32) (r : Fin n) (g : Fin 32) (j : Fin 128) :
    kcodes R qb nqb G (ix2 r (place g j)) = kcode R qb nqb G (ix3 r g j) := by
  show FloatOps.truncf (F := Ideal) .bf16 bitsLt_bf16_f32 (shapeCast (⟨2, ![n, 4096]⟩ : Shape) (kcode R qb nqb G) R.flat (ix2 r (place g j))) = _
  rw [Ideal.truncf_def]
  exact shapeCast_apply (kcode R qb nqb G) R.flat (ix2 r (place g j)) (ix3 r g j)
    (by rw [Shape.rowMajor_val_three, Shape.rowMajor_val_two]
        show (r.val * 32 + g.val) * 128 + j.val = r.val * 4096 + (g.val * 128 + j.val)
        omega)

/-- The staged scales: entry (kt, r, g) is the scale of group (r, kt·8 + g). -/
theorem kscales_apply (G : FVec Ideal ⟨3, ![n, 32, 128]⟩ .f32) (kt : Fin 4) (r : Fin n) (g : Fin 8) :
    kscales R qb G (ix3 kt r g)
      = kscale R qb G (ix3 r (⟨kt.val * 8 + g.val, by have := kt.isLt; have := g.isLt; omega⟩ : Fin 32) (0 : Fin 1)) := by
  unfold kscales
  rw [transpose_apply [1, 0, 2] _ R.tr (ix3 kt r g) (ix3 r kt g) (fun b => match b with
    | ⟨0, _⟩ => rfl
    | ⟨1, _⟩ => rfl
    | ⟨2, _⟩ => rfl)]
  rw [shapeCast_apply _ R.split (ix3 r kt g) (ix2 r (⟨kt.val * 8 + g.val, by have := kt.isLt; have := g.isLt; omega⟩ : Fin 32))
    (by rw [Shape.rowMajor_val_three, Shape.rowMajor_val_two]
        show r.val * 32 + (kt.val * 8 + g.val) = (r.val * 4 + kt.val) * 8 + g.val
        omega)]
  exact shapeCast_apply _ R.sq (ix2 r (⟨kt.val * 8 + g.val, by have := kt.isLt; have := g.isLt; omega⟩ : Fin 32))
    (ix3 r (⟨kt.val * 8 + g.val, by have := kt.isLt; have := g.isLt; omega⟩ : Fin 32) (0 : Fin 1))
    (by rw [Shape.rowMajor_val_three, Shape.rowMajor_val_two]
        show (r.val * 32 + (kt.val * 8 + g.val)) * 1 + 0 = r.val * 32 + (kt.val * 8 + g.val)
        omega)

end Rows

/-- Entry (r, g, j) of the grouped activations is place `j` of group `g` of row `r`. -/
theorem kxg_apply (X : FVec Ideal S4x2048x4096 .f32) (r : Fin 8192) (g : Fin 32) (j : Fin 128) :
    kxg X (ix3 r g j) = xg X r g j := by
  unfold kxg xg
  rw [shapeCast_apply _ shapeCasts_S8192x4096_S8192x32x128 (ix3 r g j) (ix2 r (place g j))
    (by rw [Shape.rowMajor_val_three, Shape.rowMajor_val_two]
        show r.val * 4096 + (g.val * 128 + j.val) = (r.val * 32 + g.val) * 128 + j.val
        omega)]
  exact shapeCast_apply X shapeCasts_S4x2048x4096_S8192x4096 (ix2 r (place g j))
    (ix3 (⟨r.val / 2048, by have := r.isLt; omega⟩ : Fin 4) (⟨r.val % 2048, Nat.mod_lt _ (by decide)⟩ : Fin 2048) (place g j))
    (by rw [Shape.rowMajor_val_three, Shape.rowMajor_val_two]
        show (r.val / 2048 * 2048 + r.val % 2048) * 4096 + (g.val * 128 + j.val) = r.val * 4096 + (g.val * 128 + j.val)
        omega)

/-- Entry (o, g, j) of the grouped weights is place `j` of group `g` of row `o`. -/
theorem kwg_apply (W : FVec Ideal S4096x4096 .f32) (o : Fin 4096) (g : Fin 32) (j : Fin 128) :
    kwg W (ix3 o g j) = wg W o g j := by
  unfold kwg wg
  exact shapeCast_apply W shapeCasts_S4096x4096_S4096x32x128 (ix3 o g j) (ix2 o (place g j))
    (by rw [Shape.rowMajor_val_three, Shape.rowMajor_val_two]
        show o.val * 4096 + (g.val * 128 + j.val) = (o.val * 32 + g.val) * 128 + j.val
        omega)

/-! ## The four staged arrays as the operations' composed terms -/

theorem V_v16 : (V m c main_v16 : S8192x4096.Idx → Ideal .bf16) = kcodes rel8192 0x42FE0000#32 0xC2FE0000#32 (kxg (m ((c : Thread nD τ).loc main_arg0))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

theorem V_v33 : (V m c main_v33 : S4096x4096.Idx → Ideal .bf16) = kcodes rel4096 0x40E00000#32 0xC0E00000#32 (kwg (m ((c : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

theorem V_v36 : (V m c main_v36 : S4x8192x8.Idx → Ideal .f32) = kscales rel8192 0x42FE0000#32 (kxg (m ((c : Thread nD τ).loc main_arg0))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

theorem V_v38 : (V m c main_v38 : S4x4096x8.Idx → Ideal .f32) = kscales rel4096 0x40E00000#32 (kwg (m ((c : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

/-! ## The staged arrays, entry by entry -/

/-- The activations' codes as staged: entry (r, g·128 + j) is the code of place `j` of group `g` of row `r`. -/
theorem codes_x (r : Fin 8192) (g : Fin 32) (j : Fin 128) :
    (V m c main_v16 : S8192x4096.Idx → Ideal .bf16) (ix2 r (place g j)) = xcode (V m c main_arg0) r g j := by
  rw [V_main_arg0 m c]
  refine (congrFun (V_v16 m c) (ix2 r (place g j))).trans ?_
  refine (kcodes_apply rel8192 _ _ _ r g j).trans ((kcode_apply rel8192 _ _ _ r g j).trans ?_)
  rw [show (fun j => kxg (m ((c : Thread nD τ).loc main_arg0)) (ix3 r g j)) = xg (m ((c : Thread nD τ).loc main_arg0)) r g from
    funext fun j => kxg_apply _ r g j]
  rfl

/-- The weights' codes as staged: entry (o, g·128 + j) is the code of place `j` of group `g` of row `o`. -/
theorem codes_w (o : Fin 4096) (g : Fin 32) (j : Fin 128) :
    (V m c main_v33 : S4096x4096.Idx → Ideal .bf16) (ix2 o (place g j)) = wcode (V m c main_arg1) o g j := by
  rw [V_main_arg1 m c]
  refine (congrFun (V_v33 m c) (ix2 o (place g j))).trans ?_
  refine (kcodes_apply rel4096 _ _ _ o g j).trans ((kcode_apply rel4096 _ _ _ o g j).trans ?_)
  rw [show (fun j => kwg (m ((c : Thread nD τ).loc main_arg1)) (ix3 o g j)) = wg (m ((c : Thread nD τ).loc main_arg1)) o g from
    funext fun j => kwg_apply _ o g j]
  rfl

/-- The activations' scales as staged: entry (kt, r, g) is the scale of group kt·8 + g of row `r`. -/
theorem scales_x (kt : Fin 4) (r : Fin 8192) (g : Fin 8) :
    (V m c main_v36 : S4x8192x8.Idx → Ideal .f32) (ix3 kt r g)
      = xscale (V m c main_arg0) r ⟨kt.val * 8 + g.val, by have := kt.isLt; have := g.isLt; omega⟩ := by
  rw [V_main_arg0 m c]
  refine (congrFun (V_v36 m c) (ix3 kt r g)).trans ?_
  refine (kscales_apply rel8192 _ _ kt r g).trans ((kscale_apply rel8192 _ _ r _ 0).trans ?_)
  rw [show (fun j => kxg (m ((c : Thread nD τ).loc main_arg0)) (ix3 r (⟨kt.val * 8 + g.val, by have := kt.isLt; have := g.isLt; omega⟩ : Fin 32) j))
      = xg (m ((c : Thread nD τ).loc main_arg0)) r ⟨kt.val * 8 + g.val, by have := kt.isLt; have := g.isLt; omega⟩ from
    funext fun j => kxg_apply _ r _ j]
  rfl

/-- The weights' scales as staged: entry (kt, o, g) is the scale of group kt·8 + g of row `o`. -/
theorem scales_w (kt : Fin 4) (o : Fin 4096) (g : Fin 8) :
    (V m c main_v38 : S4x4096x8.Idx → Ideal .f32) (ix3 kt o g)
      = wscale (V m c main_arg1) o ⟨kt.val * 8 + g.val, by have := kt.isLt; have := g.isLt; omega⟩ := by
  rw [V_main_arg1 m c]
  refine (congrFun (V_v38 m c) (ix3 kt o g)).trans ?_
  refine (kscales_apply rel4096 _ _ kt o g).trans ((kscale_apply rel4096 _ _ o _ 0).trans ?_)
  rw [show (fun j => kwg (m ((c : Thread nD τ).loc main_arg1)) (ix3 o (⟨kt.val * 8 + g.val, by have := kt.isLt; have := g.isLt; omega⟩ : Fin 32) j))
      = wg (m ((c : Thread nD τ).loc main_arg1)) o ⟨kt.val * 8 + g.val, by have := kt.isLt; have := g.isLt; omega⟩ from
    funext fun j => kwg_apply _ o _ j]
  rfl

end Cert.KernelHost

end
-- ==== Proof.PointTerms.lean ====
/-
  One lane group's term at a grid point is the specification's group term.

  Grid point `t` is reduction step `t % 4`: its tiles hold lanes (t % 4) · 1024 … of the codes, that is groups
  (t % 4) · 8 + g for g = 0 … 7, and plane `t % 4` of the two scale arrays. Entry (p, q) of lane group `g`'s term —
  the sum over the group's 128 lanes of activation code times weight code, times the product of the two scales —
  is therefore the specification's term of row `rowAt t p`, column `colAt t q` and group (t % 4) · 8 + g: each tile
  entry is an entry of a staged array, and each of those is the specification's code or scale.
-/
import proofs.«119646_j76888504533247_2_alg».proof.Proof.BlockReads
import proofs.«119646_j76888504533247_2_alg».proof.Proof.StepValue
import proofs.«119646_j76888504533247_2_alg».proof.Proof.KernelHost
import proofs.«119646_j76888504533247_2_alg».proof.Proof.Spec

set_option maxRecDepth 16384

noncomputable section

open Idealize.ShloMosaic Idealize.ShloMosaic.TcCoe Idealize.ShloMosaic.ValueIdx

namespace Cert.KernelIdeal.PointTerms

open Cert.KernelIdeal Cert.KernelIdeal.Gen Cert.KernelIdeal.Blocks Cert.KernelIdeal.Step Cert.QuantSpec

variable (m : (ℓ : Loc nD τ sig) → Buf (Elt Ideal) ℓ) (c : Dev nD)

/-- A lane group's term of four tiles whose entries are the codes and scales of group `G` of row `r` of the
    activations and row `o` of the weights is the specification's term of (r, o, G). -/
theorem grp_eq (x0 : Vec Ideal S2048x1024 .bf16) (x1 : Vec Ideal S1024x1024 .bf16) (x2 : Vec Ideal S1x2048x8 .f32)
    (x3 : Vec Ideal S1x1024x8 .f32) (X : SX.Idx → Ideal .f32) (W : SW.Idx → Ideal .f32) (r : Fin 8192) (o : Fin 4096)
    (G : Fin 32) (g : Fin 8) (p : Fin 2048) (q : Fin 1024)
    (h0 : ∀ j : Fin 128, x0 (ix2 p (lane g j)) = xcode X r G j)
    (h1 : ∀ j : Fin 128, x1 (ix2 q (lane g j)) = wcode W o G j)
    (h2 : x2 (ix3 (0 : Fin 1) p g) = xscale X r G)
    (h3 : x3 (ix3 (0 : Fin 1) q g) = wscale W o G) :
    grp x0 x1 x2 x3 g p q = term X W r o G := by
  unfold grp term
  rw [h2, h3]
  refine congrArg (· * (xscale X r G * wscale W o G)) (Finset.sum_congr rfl fun j _ => ?_)
  rw [h0 j, h1 j]

/-- Lane `j` of lane group `g` of point `t`'s tiles is place `j` of group (t % 4) · 8 + g. -/
theorem laneAt_lane (t : Fin cfg0.N) (g : Fin 8) (j : Fin 128) :
    laneAt t (lane g j) = place ⟨t.val % 4 * 8 + g.val, by have := g.isLt; omega⟩ j := by
  apply Fin.ext
  show t.val % 4 * 1024 + (g.val * 128 + j.val) = (t.val % 4 * 8 + g.val) * 128 + j.val
  omega

/-- Lane group `g`'s term at entry (p, q) of point `t` is the specification's term of the entry's row and column and
    of group (t % 4) · 8 + g. -/
theorem grp_at (t : Fin cfg0.N) (g : Fin 8) (p : Fin 2048) (q : Fin 1024) :
    grp (iblk m c 0 t) (iblk m c 1 t) (iblk m c 2 t) (iblk m c 3 t) g p q
      = term (V m c main_arg0) (V m c main_arg1) (rowAt t p) (colAt t q) ⟨t.val % 4 * 8 + g.val, by have := g.isLt; omega⟩ :=
  grp_eq (iblk m c 0 t) (iblk m c 1 t) (iblk m c 2 t) (iblk m c 3 t) (V m c main_arg0) (V m c main_arg1)
    (rowAt t p) (colAt t q) ⟨t.val % 4 * 8 + g.val, by have := g.isLt; omega⟩ g p q
    (fun j => (iblk0_apply m c t p (lane g j)).trans
      ((congrArg (fun l => (V m c main_v16 : S8192x4096.Idx → Ideal .bf16) (ix2 (rowAt t p) l)) (laneAt_lane t g j)).trans
        (Cert.KernelHost.codes_x m c (rowAt t p) ⟨t.val % 4 * 8 + g.val, by have := g.isLt; omega⟩ j)))
    (fun j => (iblk1_apply m c t q (lane g j)).trans
      ((congrArg (fun l => (V m c main_v33 : S4096x4096.Idx → Ideal .bf16) (ix2 (colAt t q) l)) (laneAt_lane t g j)).trans
        (Cert.KernelHost.codes_w m c (colAt t q) ⟨t.val % 4 * 8 + g.val, by have := g.isLt; omega⟩ j)))
    ((iblk2_apply m c t p g).trans (Cert.KernelHost.scales_x m c (stepAt t) (rowAt t p) g))
    ((iblk3_apply m c t q g).trans (Cert.KernelHost.scales_w m c (stepAt t) (colAt t q) g))

end Cert.KernelIdeal.PointTerms

end
-- ==== Proof.OutArray.lean ====
/-
  The output array from its blocks, and the reshape after the region.

  The kernel's one output is the [8192, 4096] array of the flattened result, cut into a 4 × 4 arrangement of
  [2048, 1024] blocks. Grid point t works on the block in block row t / 16 and block column (t / 4) % 4, and
  writes it back when its four reduction steps are done, at the points with t % 4 = 3. Every entry (r, o) of the
  array lies in exactly one block, the one of the point (r / 2048) · 16 + (o / 1024) · 4 + 3; so if what each such
  point writes back is its block of one function G of the array's index, the array ends holding G. After the
  region the host reshapes the [8192, 4096] array to [4, 2048, 4096]: entry (b, s, o) of the result is entry
  (b · 2048 + s, o) of the array, the two having the same row-major position.
-/
import proofs.«119646_j76888504533247_2_alg».proof.Proof.BlockReads
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.Blocks

variable {F : FTy → Type} [FloatOps F]
variable (m : (ℓ : Loc nD τ sig) → Buf (Elt F) ℓ)

/-! ## The blocks cover the array -/

/-- An index of the array is in point t's block iff each coordinate is in the block's range on its axis. -/
theorem mem_blk5 (t : Fin cfg0.N) (i : S8192x4096.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v39).slice (win0_5.rect t)).set ↔ _
  rw [View.set_slice_whole, Rect.mem_set_unit]
  exact Iff.rfl

/-- Every index of the array is in the block of a point that writes back: the last reduction step of its block row
    and block column. -/
theorem cover5 (i : S8192x4096.Idx) :
    ∃ t : Fin cfg0.N, (cfg0.win 5).flush t = true ∧ i ∈ ((cfg0.win 5).blk t).view.set := by
  have hN : cfg0.N = 64 := N64
  have hi0 : (i 0).val < 8192 := (i 0).isLt
  have hi1 : (i 1).val < 4096 := (i 1).isLt
  obtain ⟨t, ht⟩ : ∃ t : Fin cfg0.N, t.val = (i 0).val / 2048 * 16 + (i 1).val / 1024 * 4 + 3 :=
    ⟨⟨(i 0).val / 2048 * 16 + (i 1).val / 1024 * 4 + 3, by omega⟩, rfl⟩
  obtain ⟨-, -, -, -, -, -, -, -, -, -, -, e0, e1⟩ := idx_facts t
  refine ⟨t, (flush0_5 t).mpr (by omega), ?_⟩
  rw [mem_blk5]
  intro a
  match a with
  | ⟨0, _⟩ =>
    show win0_5.index t (0 : Fin 2) * 2048 ≤ (i 0).val ∧ (i 0).val < win0_5.index t (0 : Fin 2) * 2048 + 2048
    rw [e0]; omega
  | ⟨1, _⟩ =>
    show win0_5.index t (1 : Fin 2) * 1024 ≤ (i 1).val ∧ (i 1).val < win0_5.index t (1 : Fin 2) * 1024 + 1024
    rw [e1]; omega

/-! ## The array from its blocks -/

/-- If every point that writes back writes its block of G, the array ends holding G. -/
theorem final_of_flushed (c : Dev nD) (G : S8192x4096.Idx → Elt F .f32)
    (hfl : ∀ t : Fin cfg0.N, (cfg0.win 5).flush t = true →
      (dats m 0 c).flushed 5 t = ((cfg0.win 5).blk t).view.read (Elt F) G) :
    (dats m 0 c).arrAt 5 cfg0.N = G :=
  (dats m 0 c).arrAt_eq_of_cover 5 G hfl cover5

/-- Point t's block of G at its entry (p, q): G at row t / 16 · 2048 + p and column (t / 4) % 4 · 1024 + q. -/
theorem blk5_read_apply (G : S8192x4096.Idx → Elt F .f32) (t : Fin cfg0.N) (p : Fin 2048) (q : Fin 1024) :
    (((cfg0.win 5).blk t).view.read (Elt F) G : S2048x1024.Idx → Elt F .f32) (ix2 p q)
      = G (ix2 (rowAt t p) (colAt t q)) := by
  obtain ⟨-, -, -, -, -, -, -, -, -, -, -, e0, e1⟩ := idx_facts t
  rw [View.read_apply]
  refine congrArg G (funext fun a => Fin.ext ?_)
  match a with
  | ⟨0, _⟩ => show win0_5.index t (0 : Fin 2) * 2048 + 1 * p.val = t.val / 16 * 2048 + p.val; rw [e0]; omega
  | ⟨1, _⟩ => show win0_5.index t (1 : Fin 2) * 1024 + 1 * q.val = t.val / 4 % 4 * 1024 + q.val; rw [e1]; omega

/-- What point t writes back is what the body left in the output's buffer there: the blocks tile the array, so no
    block is cut. -/
theorem flushed5_eq (c : Dev nD) (t : Fin cfg0.N) :
    ((dats m 0 c).flushed 5 t : S2048x1024.Idx → Elt F .f32) = (outsAt0 m c t.val t.isLt).1 := by
  show (cfg0.win 5).cut (grid0.coords t) ((dats m 0 c).after 5 t) = _
  rw [after0_5]
  rfl

/-! ## The reshape after the region -/

/-- The result after the host's reshape, as a function: the array the region leaves, reshaped. -/
theorem tail_eq (c : Dev nD) :
    (Pipeline.afterTail₀ cfgs (dats m) 0 (V0 m) [hostOps1] c main_v40 : S4x2048x4096.Idx → Elt F .f32)
      = shapeCast S4x2048x4096 ((dats m 0 c).arrAt 5 cfg0.N : S8192x4096.Idx → Elt F .f32)
          shapeCasts_S8192x4096_S4x2048x4096 := by
  unfold Pipeline.afterTail₀
  show StableHlo.after hostOps1 _ (Proc.devRef .tc main_v40) = _
  after_results
  have e : Pipeline.withArrays (cfgs 0).spec c (V0 m c) (fun w => (dats m 0 c).arrAt w (cfgs 0).N)
      (Proc.devRef .tc main_v39) = (dats m 0 c).arrAt 5 cfg0.N :=
    Pipeline.withArrays_arr spec0 launch0.win.arr_inj c _ _ 5
  rw [e]
  rfl

/-- Entry (b, s, o) of the result is entry (b · 2048 + s, o) of the array the region leaves. -/
theorem tail_read (c : Dev nD) (b : Fin 4) (s : Fin 2048) (o : Fin 4096) :
    (Pipeline.afterTail₀ cfgs (dats m) 0 (V0 m) [hostOps1] c main_v40 : S4x2048x4096.Idx → Elt F .f32) (ix3 b s o)
      = ((dats m 0 c).arrAt 5 cfg0.N : S8192x4096.Idx → Elt F .f32)
          (ix2 (⟨b.val * 2048 + s.val, by have := b.isLt; have := s.isLt; omega⟩ : Fin 8192) o) := by
  rw [tail_eq]
  refine shapeCast_apply _ shapeCasts_S8192x4096_S4x2048x4096 (ix3 b s o) _ ?_
  rw [Shape.rowMajor_val_two, Shape.rowMajor_val_three]
  show (b.val * 2048 + s.val) * 4096 + o.val = (b.val * 2048 + s.val) * 4096 + o.val
  rfl

end Cert.KernelIdeal.OutArray

end
-- ==== Proof.KernelRun.lean ====
/-
  The kernel's run, read as values.

  Every output tile is written back once, at its last reduction step, holding the grouped form of the layer at
  each of its entries; the tiles cover the [8192, 4096] array, and the one host line after the region views
  that array as [4, 2048, 4096]: the kernel ends with the Spec's `result` of its three arguments.
-/
import proofs.«119646_j76888504533247_2_alg».proof.Proof.GridValue
import proofs.«119646_j76888504533247_2_alg».proof.Proof.PointTerms
import proofs.«119646_j76888504533247_2_alg».proof.Proof.OutArray

set_option maxRecDepth 16384

noncomputable section

open Idealize.ShloMosaic Idealize.ShloMosaic.TcCoe Idealize.SL.Sem Idealize.ShloMosaic.ValueIdx

namespace Cert.KernelIdeal.Run

open Cert.KernelIdeal Cert.KernelIdeal.Gen Cert.KernelIdeal.Blocks Cert.KernelIdeal.Grid Cert.KernelIdeal.OutArray
open Cert.KernelIdeal.PointTerms Cert.QuantSpec

variable (m : (ℓ : Loc nD τ sig) → Buf (Elt Ideal) ℓ) (ρ : Dev nD → PrngReg)

/-- The [8192, 4096] array the region leaves: entry (r, o) is the grouped form at row r and column o. -/
def flat (c : Dev nD) : S8192x4096.Idx → Ideal .f32 :=
  fun y => grouped (V m c main_arg0) (V m c main_arg1) (V m c main_arg2) (y 0) (y 1)

/-- What a last reduction step writes back is its tile of that array. -/
theorem flushed_flat (c : Dev nD) (t : Fin cfg0.N) (hf : (cfg0.win 5).flush t = true) :
    (dats m 0 c).flushed 5 t = ((cfg0.win 5).blk t).view.read (Elt Ideal) (flat m c) := by
  have h3 : t.val % 4 = 3 := (flush0_5 t).mp hf
  refine (flushed5_eq m c t).trans (funext fun y => ?_)
  obtain ⟨p, q, rfl⟩ : ∃ (p : Fin 2048) (q : Fin 1024), y = ix2 p q := ⟨y 0, y 1, eq_ix2 y⟩
  rw [blk5_read_apply]
  exact out_eq m c (grp_at m c) t h3 p q

/-- So the array ends at it. -/
theorem final_flat (c : Dev nD) : (dats m 0 c).arrAt 5 cfg0.N = flat m c :=
  final_of_flushed m c (flat m c) (flushed_flat m c)

/-- The result buffer after the host line: the Spec's result of the three arguments. -/
theorem tail_result (c : Dev nD) :
    (Pipeline.afterTail₀ cfgs (dats m) 0 (V0 m) [hostOps1] c main_v40 : S4x2048x4096.Idx → Ideal .f32)
      = result (m ((c : Thread nD τ).loc main_arg0)) (m ((c : Thread nD τ).loc main_arg1)) (m ((c : Thread nD τ).loc main_arg2)) := by
  funext i
  obtain ⟨b, s, o, rfl⟩ : ∃ (b : Fin 4) (s : Fin 2048) (o : Fin 4096), i = ix3 b s o := ⟨i 0, i 1, i 2, eq_ix3 i⟩
  rw [tail_read, final_flat]
  show grouped (V m c main_arg0) (V m c main_arg1) (V m c main_arg2) _ _ = _
  rw [V_main_arg0, V_main_arg1, V_main_arg2]
  rfl

/-- THE RUN: the kernel program terminates with its result at the Spec's `result` and its arguments unchanged. -/
theorem run : θ_run defs (onTc (τ := τ) (main (F := Ideal))) ⟨m, fun _ => 0, ρ⟩ (fun r => ∀ c : Dev nD,
      r.2.mem ((c.tc : Thread nD τ).loc main_v40)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v40 (Pipeline.mem_restRefs_of main_v40 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 4).trans (((dats m 0 c).arrAt_in 4 rfl _).trans ((A_eq m c 4).trans (V_main_arg2 m c)))⟩)
    (run_main m ρ)

end Cert.KernelIdeal.Run

end
-- ==== Proof.RefSide.lean ====
/-
  The reference program computes the placewise form of the quantised linear layer.

  Both arguments are cut into groups of 128 along the last axis by a reshape, so entry (o, g, l) of the grouped
  weights is entry (o, g·128 + l) of the weights, and entry (b, s, g, l) of the grouped activations is place l of
  group g of row b·2048 + s.  On each group the program takes the maximum of the magnitudes, started at -∞ (a
  reduce over the last axis: at a reduced index it is the fold of the maximum over the 128 places put back on that
  axis), divides by 7 or 127, replaces a zero quotient by 1, and that is the group's scale; it divides each entry by
  its group's scale, rounds to even, clamps, and that is the entry's code; it multiplies the code by the scale again
  and flattens the groups back, so place k of a row carries the code and scale of place k % 128 of group k / 128.
  The contraction over the 4096 places of the two dequantised arrays, plus the bias broadcast along the two leading
  axes, is then the placewise form, entry by entry.  No law of the extended reals is used: every step is the reading
  of one operation at an index, and the index arithmetic of the reshapes.
-/
import proofs.«119646_j76888504533247_2_alg».proof.Proof.Spec
import proofs.«119646_j76888504533247_2_alg».proof.Proof.Gen.ReferenceIdeal.Read
import Idealize.ShloMosaic.PureOps.Reduce
import Idealize.ShloMosaic.PureOps.Ideal.Laws
import Idealize.ShloMosaic.Lib.ValueIdx

noncomputable section

namespace Cert.RefSide

open Idealize.ShloMosaic Idealize.ShloMosaic.ValueIdx Cert.ReferenceIdeal Cert.ReferenceIdeal.Read Cert.QuantSpec

/-- Entry (o, g, l) of the weights cut into groups is entry (o, g·128 + l) of the weights. -/
theorem w_elem (W : SW.Idx → Ideal .f32) (o : Fin 4096) (g : Fin 32) (l : Fin 128) :
    val_main_v0 (F := Ideal) W (ix3 o g l) = W (ix2 o (place g l)) := by
  rw [val_main_v0_apply]
  refine congrArg W (funext fun a => Fin.ext ?_)
  have ho := o.isLt; have hg := g.isLt; have hl := l.isLt
  match a with
  | ⟨0, _⟩ => show ((o.val * 32 + g.val) * 128 + l.val) / 4096 = o.val; omega
  | ⟨1, _⟩ => show ((o.val * 32 + g.val) * 128 + l.val) % 4096 = g.val * 128 + l.val; omega

/-- The reduced index (o, g) with place k put back on the last axis is (o, g, k). -/
theorem w_lift (h : S4096x32x128.Reduces [2] S4096x32) (o : Fin 4096) (g : Fin 32)
    (k : Fin (S4096x32x128.size 2)) : h.lift (ix2 o g) k = ix3 o g (⟨k.val, k.isLt⟩ : Fin 128) := by
  funext c; apply Fin.ext
  fin_cases c <;> rfl

/-- The maximum-reduce of the weights' magnitudes over the last axis, at (o, g), is the group's largest magnitude. -/
theorem w_amax (W : SW.Idx → Ideal .f32) (o : Fin 4096) (g : Fin 32) :
    val_main_v2 (F := Ideal) W (ix2 o g) = amax (wg W o g) := by
  have hr : S4096x32x128.Reduces [2] S4096x32 := by decide
  unfold val_main_v2
  rw [Host.reduce_eq_fold_single FloatOps.maximumf _ _ _ hr]
  have hf : (val_main_v1 (F := Ideal) W ∘ hr.lift (ix2 o g)) = fun j : Fin 128 => FloatOps.hostAbsf (F := Ideal) (wg W o g j) :=
    funext fun k => by
      rw [Function.comp_apply, val_main_v1_apply, w_lift hr o g k, w_elem]
      rfl
  rw [hf]
  rfl

/-- The weights' scale at (o, g). -/
theorem w_scale (W : SW.Idx → Ideal .f32) (o : Fin 4096) (g : Fin 32) :
    val_main_v9 (F := Ideal) W (ix3 o g (0 : Fin 1)) = wscale W o g := by
  have e3 : idx_main_v3 (ix3 o g (0 : Fin 1)) = ix2 o g :=
    funext fun a => Fin.ext (by match a with | ⟨0, _⟩ => rfl | ⟨1, _⟩ => rfl)
  rw [val_main_v9_apply, val_main_v7_apply, val_main_v8_apply, val_main_v6_apply, val_main_v5_apply,
    val_main_v4_apply, val_main_v3_apply, val_main_cst_0_apply, val_main_cst_1_apply, val_main_cst_2_apply,
    e3, w_amax]
  rfl

/-- The dequantised weight at (o, g, l): its code times its group's scale. -/
theorem w_deq3 (W : SW.Idx → Ideal .f32) (o : Fin 4096) (g : Fin 32) (l : Fin 128) :
    val_main_v15 (F := Ideal) W (ix3 o g l) = wcode W o g l * wscale W o g := by
  have e10 : idx_main_v10 (ix3 o g l) = ix3 o g (0 : Fin 1) :=
    funext fun a => Fin.ext (by match a with | ⟨0, _⟩ => rfl | ⟨1, _⟩ => rfl | ⟨2, _⟩ => rfl)
  have e14 : idx_main_v14 (ix3 o g l) = ix3 o g (0 : Fin 1) :=
    funext fun a => Fin.ext (by match a with | ⟨0, _⟩ => rfl | ⟨1, _⟩ => rfl | ⟨2, _⟩ => rfl)
  rw [val_main_v15_apply, val_main_v14_apply, val_main_v13_apply, val_main_call2_v4_apply, val_main_call2_v3_apply,
    val_main_cst_4_apply, val_main_call2_v2_apply, val_main_call2_v1_apply, val_main_call2_v0_apply, val_main_cst_3_apply,
    val_main_v12_apply, val_main_v11_apply, val_main_v10_apply, e10, e14, w_scale, w_elem]
  rfl

/-- The dequantised weight at (o, k), place k being place k % 128 of group k / 128. -/
theorem w_deq (W : SW.Idx → Ideal .f32) (o : Fin 4096) (k : Fin 4096) :
    val_main_v16 (F := Ideal) W (ix2 o k)
      = wcode W o ⟨k.val / 128, by have := k.isLt; omega⟩ ⟨k.val % 128, Nat.mod_lt _ (by decide)⟩
        * wscale W o ⟨k.val / 128, by have := k.isLt; omega⟩ := by
  have e16 : idx_main_v16 (ix2 o k)
      = ix3 o (⟨k.val / 128, by have := k.isLt; omega⟩ : Fin 32) (⟨k.val % 128, Nat.mod_lt _ (by decide)⟩ : Fin 128) :=
    funext fun a => Fin.ext (by
      have ho := o.isLt; have hk := k.isLt
      match a with
      | ⟨0, _⟩ => show (o.val * 4096 + k.val) / 4096 = o.val; omega
      | ⟨1, _⟩ => show (o.val * 4096 + k.val) / 128 % 32 = k.val / 128; omega
      | ⟨2, _⟩ => show (o.val * 4096 + k.val) % 128 = k.val % 128; omega)
  rw [val_main_v16_apply, e16, w_deq3]

/-- Entry (b, s, g, l) of the activations cut into groups is place l of group g of row b·2048 + s. -/
theorem x_elem (X : SX.Idx → Ideal .f32) (b : Fin 4) (s : Fin 2048) (g : Fin 32) (l : Fin 128) :
    val_main_v17 (F := Ideal) X (ix4 b s g l) = xg X (rowOf b s) g l := by
  rw [val_main_v17_apply]
  unfold xg
  refine congrArg X (funext fun a => Fin.ext ?_)
  have hb := b.isLt; have hs := s.isLt; have hg := g.isLt; have hl := l.isLt
  match a with
  | ⟨0, _⟩ => show (((b.val * 2048 + s.val) * 32 + g.val) * 128 + l.val) / 8388608 = (b.val * 2048 + s.val) / 2048; omega
  | ⟨1, _⟩ => show (((b.val * 2048 + s.val) * 32 + g.val) * 128 + l.val) / 4096 % 2048 = (b.val * 2048 + s.val) % 2048; omega
  | ⟨2, _⟩ => show (((b.val * 2048 + s.val) * 32 + g.val) * 128 + l.val) % 4096 = g.val * 128 + l.val; omega

/-- The reduced index (b, s, g) with place k put back on the last axis is (b, s, g, k). -/
theorem x_lift (h : S4x2048x32x128.Reduces [3] S4x2048x32) (b : Fin 4) (s : Fin 2048) (g : Fin 32)
    (k : Fin (S4x2048x32x128.size 3)) : h.lift (ix3 b s g) k = ix4 b s g (⟨k.val, k.isLt⟩ : Fin 128) := by
  funext c; apply Fin.ext
  fin_cases c <;> rfl

/-- The maximum-reduce of the activations' magnitudes over the last axis, at (b, s, g), is the group's largest magnitude. -/
theorem x_amax (X : SX.Idx → Ideal .f32) (b : Fin 4) (s : Fin 2048) (g : Fin 32) :
    val_main_v19 (F := Ideal) X (ix3 b s g) = amax (xg X (rowOf b s) g) := by
  have hr : S4x2048x32x128.Reduces [3] S4x2048x32 := by decide
  unfold val_main_v19
  rw [Host.reduce_eq_fold_single FloatOps.maximumf _ _ _ hr]
  have hf : (val_main_v18 (F := Ideal) X ∘ hr.lift (ix3 b s g))
      = fun j : Fin 128 => FloatOps.hostAbsf (F := Ideal) (xg X (rowOf b s) g j) :=
    funext fun k => by
      rw [Function.comp_apply, val_main_v18_apply, x_lift hr b s g k, x_elem]
      rfl
  rw [hf]
  rfl

/-- The activations' scale at (b, s, g). -/
theorem x_scale (X : SX.Idx → Ideal .f32) (b : Fin 4) (s : Fin 2048) (g : Fin 32) :
    val_main_v26 (F := Ideal) X (ix4 b s g (0 : Fin 1)) = xscale X (rowOf b s) g := by
  have e20 : idx_main_v20 (ix4 b s g (0 : Fin 1)) = ix3 b s g :=
    funext fun a => Fin.ext (by match a with | ⟨0, _⟩ => rfl | ⟨1, _⟩ => rfl | ⟨2, _⟩ => rfl)
  rw [val_main_v26_apply, val_main_v24_apply, val_main_v25_apply, val_main_v23_apply, val_main_v22_apply,
    val_main_v21_apply, val_main_v20_apply, val_main_cst_6_apply, val_main_cst_7_apply, val_main_cst_8_apply,
    e20, x_amax]
  rfl

/-- The dequantised activation at (b, s, g, l): its code times its group's scale. -/
theorem x_deq4 (X : SX.Idx → Ideal .f32) (b : Fin 4) (s : Fin 2048) (g : Fin 32) (l : Fin 128) :
    val_main_v32 (F := Ideal) X (ix4 b s g l) = xcode X (rowOf b s) g l * xscale X (rowOf b s) g := by
  have e27 : idx_main_v27 (ix4 b s g l) = ix4 b s g (0 : Fin 1) :=
    funext fun a => Fin.ext (by match a with | ⟨0, _⟩ => rfl | ⟨1, _⟩ => rfl | ⟨2, _⟩ => rfl | ⟨3, _⟩ => rfl)
  have e31 : idx_main_v31 (ix4 b s g l) = ix4 b s g (0 : Fin 1) :=
    funext fun a => Fin.ext (by match a with | ⟨0, _⟩ => rfl | ⟨1, _⟩ => rfl | ⟨2, _⟩ => rfl | ⟨3, _⟩ => rfl)
  rw [val_main_v32_apply, val_main_v31_apply, val_main_v30_apply, val_main_call5_v4_apply, val_main_call5_v3_apply,
    val_main_cst_10_apply, val_main_call5_v2_apply, val_main_call5_v1_apply, val_main_call5_v0_apply, val_main_cst_9_apply,
    val_main_v29_apply, val_main_v28_apply, val_main_v27_apply, e27, e31, x_scale, x_elem]
  rfl

/-- The dequantised activation at (b, s, k), place k being place k % 128 of group k / 128. -/
theorem x_deq (X : SX.Idx → Ideal .f32) (b : Fin 4) (s : Fin 2048) (k : Fin 4096) :
    val_main_v33 (F := Ideal) X (ix3 b s k)
      = xcode X (rowOf b s) ⟨k.val / 128, by have := k.isLt; omega⟩ ⟨k.val % 128, Nat.mod_lt _ (by decide)⟩
        * xscale X (rowOf b s) ⟨k.val / 128, by have := k.isLt; omega⟩ := by
  have e33 : idx_main_v33 (ix3 b s k)
      = ix4 b s (⟨k.val / 128, by have := k.isLt; omega⟩ : Fin 32) (⟨k.val % 128, Nat.mod_lt _ (by decide)⟩ : Fin 128) :=
    funext fun a => Fin.ext (by
      have hb := b.isLt; have hs := s.isLt; have hk := k.isLt
      match a with
      | ⟨0, _⟩ => show ((b.val * 2048 + s.val) * 4096 + k.val) / 8388608 = b.val; omega
      | ⟨1, _⟩ => show ((b.val * 2048 + s.val) * 4096 + k.val) / 4096 % 2048 = s.val; omega
      | ⟨2, _⟩ => show ((b.val * 2048 + s.val) * 4096 + k.val) / 128 % 32 = k.val / 128; omega
      | ⟨3, _⟩ => show ((b.val * 2048 + s.val) * 4096 + k.val) % 128 = k.val % 128; omega)
  rw [val_main_v33_apply, e33, x_deq4]

/-- The reference's result is the placewise form: at (b, s, o), the sum over the 4096 places of the dequantised
    activation times the dequantised weight, plus the bias at o. -/
theorem ref_placewise (X : Cert.QuantSpec.SX.Idx → Ideal .f32) (W : Cert.QuantSpec.SW.Idx → Ideal .f32)
    (B : Cert.QuantSpec.SB.Idx → Ideal .f32) :
    Cert.ReferenceIdeal.Read.val_main_v37 (F := Ideal) X W B = Cert.QuantSpec.placewise X W B := by
  funext i
  obtain ⟨b, s, o, rfl⟩ : ∃ (b : Fin 4) (s : Fin 2048) (o : Fin 4096), i = ix3 b s o := ⟨i 0, i 1, i 2, eq_ix3 i⟩
  have el : ∀ k : Fin 4096, lidx_main_v34 (ix3 b s o) k = ix3 b s k := fun k =>
    funext fun a => Fin.ext (by match a with | ⟨0, _⟩ => rfl | ⟨1, _⟩ => rfl | ⟨2, _⟩ => rfl)
  have er : ∀ k : Fin 4096, ridx_main_v34 (ix3 b s o) k = ix2 o k := fun k =>
    funext fun a => Fin.ext (by match a with | ⟨0, _⟩ => rfl | ⟨1, _⟩ => rfl)
  have eb : idx_main_v35 (idx_main_v36 (ix3 b s o)) = ix1 o :=
    funext fun a => Fin.ext (by match a with | ⟨0, _⟩ => rfl)
  rw [val_main_v37_apply, val_main_v34_apply, val_main_v36_apply, val_main_v35_apply, eb, Ideal.addf_def]
  unfold placewise
  refine congrArg (· + B (ix1 o)) (Finset.sum_congr rfl fun k _ => ?_)
  rw [el, er, x_deq, w_deq]

end Cert.RefSide

end
-- ==== Proof.RefRun.lean ====
/-
  The reference program's run, with its result named by the specification.

  Every weakly fair execution of the reference terminates, nothing faulting, with its result array holding the
  placewise form of the three argument arrays as the run found them, and with the argument arrays unchanged: the
  run leaves in the result the composed term of the program's operations, and that term is the placewise form,
  entry by entry (RefSide).  Dropping the clause about the result leaves the frame claim: the reference runs and
  its argument arrays end as they began.  Neither statement uses the finiteness of the arguments.
-/
import proofs.«119646_j76888504533247_2_alg».proof.Defs
import proofs.«119646_j76888504533247_2_alg».proof.Proof.RefSide
import proofs.«119646_j76888504533247_2_alg».proof.Proof.Gen.ReferenceIdeal.Run
import proofs.«119646_j76888504533247_2_alg».proof.Proof.Gen.ReferenceIdeal.Read
import proofs.«119646_j76888504533247_2_alg».proof.Proof.Gen.Pre_finite_inputs

noncomputable section

namespace Cert.RefRun

open Idealize.ShloMosaic Idealize.ShloMosaic.TcCoe Idealize.SL.Sem

/-- The reference runs; its result is the placewise form of its arguments, and its arguments end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v37) = Cert.QuantSpec.placewise (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((Cert.ReferenceIdeal.Read.val_main_v37_eq m' c).trans (Cert.RefSide.ref_placewise _ _ _)), (h c).2⟩)
    (Cert.ReferenceIdeal.Value.run (F := Ideal) m' ρ')

/-- The reference runs and its argument arrays end unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.RefRun

end
-- ==== Proof.Algebra.lean ====
/-
  Regrouping the sum of the quantised linear layer.

  Both forms of an entry add the bias to a sum of products of four factors: an activation's code and
  scale and a weight's code and scale.  On the extended reals a product distributes over a sum only
  when the factors are real numbers, so the first half of this file shows that they are:
    * a code is a value clamped between two real bounds, hence real whatever was clamped;
    * a scale is the group's largest magnitude divided by a nonzero real, or 1; the largest magnitude
      of 128 real numbers is real, so the scale is real when the group is.
  The second half is the identity in ℝ: summing over the 4096 places k = 128·g + j is summing over the
  32 groups g and, inside a group, over its 128 places j; the two scales of a group do not depend on j
  and leave the inner sum.
-/
import proofs.«119646_j76888504533247_2_alg».proof.Proof.Spec
import Mathlib.Algebra.BigOperators.Ring.Finset
import Mathlib.Algebra.BigOperators.Group.Finset.Sigma
import Mathlib.Tactic.Ring

namespace Cert.QuantAlgebra

open Cert.QuantSpec Idealize.ShloMosaic Idealize.ShloMosaic.ValueIdx

/-! ## The literals -/

/-- The words of the literals denote -∞, 1, 127, -127, 7 and -7. -/
theorem negInf_eq : negInf = (⊥ : EReal) := by
  simp [negInf, Ideal.ofBits, Ideal.ieee]
theorem one_eq : one = ((1 : ℝ) : EReal) := by
  simp [one, Ideal.ofBits, Ideal.ieee, -EReal.coe_mul]; norm_num
theorem qA_eq : qA = ((127 : ℝ) : EReal) := by
  simp [qA, Ideal.ofBits, Ideal.ieee, -EReal.coe_mul]; norm_num
theorem nqA_eq : nqA = ((-127 : ℝ) : EReal) := by
  simp [nqA, Ideal.ofBits, Ideal.ieee, -EReal.coe_mul, -EReal.coe_neg]; norm_num
theorem qW_eq : qW = ((7 : ℝ) : EReal) := by
  simp [qW, Ideal.ofBits, Ideal.ieee, -EReal.coe_mul]; norm_num
theorem nqW_eq : nqW = ((-7 : ℝ) : EReal) := by
  simp [nqW, Ideal.ofBits, Ideal.ieee, -EReal.coe_mul, -EReal.coe_neg]; norm_num

/-! ## A code is a real number -/

/-- The coercion of the reals into the extended reals carries max to max and min to min. -/
theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- A value clamped between two real bounds is real, whatever the value: -∞ clamps to the lower bound, +∞ to the upper. -/
theorem clamp_real (nq q : ℝ) (z : EReal) : ∃ c : ℝ, min (q : EReal) (max (nq : EReal) z) = (c : EReal) := by
  induction z using EReal.rec with
  | bot => exact ⟨min q nq, by rw [max_eq_left bot_le, coe_min]⟩
  | top => exact ⟨q, by rw [max_eq_right le_top, min_eq_left le_top]⟩
  | coe a => exact ⟨min q (max nq a), by rw [coe_min, coe_max]⟩

/-- So a code between real bounds is real. -/
theorem code_real {nqE qE : Ideal .f32} (nq q : ℝ) (hn : nqE = (nq : EReal)) (hq : qE = (q : EReal))
    (f : Fin 128 → Ideal .f32) (j : Fin 128) : ∃ c : ℝ, code nqE qE f j = (c : EReal) := by
  obtain ⟨c, hc⟩ := clamp_real nq q (FloatOps.hostUnary (F := Ideal) .roundeven (FloatOps.hostDivf (f j) (scale qE f)))
  refine ⟨c, ?_⟩
  rw [← hc, ← hn, ← hq]
  rfl

/-! ## A scale is a real number when the group is -/

/-- The magnitude of a real number is real. -/
theorem abs_real (a : ℝ) : FloatOps.hostAbsf (F := Ideal) (φ := .f32) (a : EReal) = ((max a (-a) : ℝ) : EReal) := by
  rw [coe_max, EReal.coe_neg]; rfl

/-- The maximum, started at -∞, over a set of real numbers: -∞ when the set is empty, else a real number. -/
theorem fold_max_real (g : Fin 128 → ℝ) (s : Finset (Fin 128)) :
    s = ∅ ∨ ∃ a : ℝ, s.fold (FloatOps.maximumf (F := Ideal) (φ := .f32)) (⊥ : EReal) (fun j => ((g j : ℝ) : EReal)) = (a : EReal) := by
  induction s using Finset.induction_on with
  | empty => exact Or.inl rfl
  | insert i s hi ih =>
    refine Or.inr ?_
    rw [Finset.fold_insert hi]
    rcases ih with rfl | ⟨a, ha⟩
    · exact ⟨g i, by rw [Finset.fold_empty]; exact max_eq_left bot_le⟩
    · exact ⟨max (g i) a, by rw [ha, coe_max]; rfl⟩

/-- The largest magnitude of a group of real numbers is a real number. -/
theorem amax_real (f : Fin 128 → Ideal .f32) (hf : ∀ j, ∃ a : ℝ, f j = (a : EReal)) : ∃ m : ℝ, amax f = (m : EReal) := by
  choose a ha using hf
  have hfun : (fun j => FloatOps.hostAbsf (F := Ideal) (f j)) = fun j => (((max (a j) (-(a j)) : ℝ)) : EReal) :=
    funext fun j => by rw [ha j, abs_real]
  unfold amax
  rw [hfun, negInf_eq]
  rcases fold_max_real (fun j => max (a j) (-(a j))) Finset.univ with h | h
  · exact absurd h (Finset.univ_nonempty (α := Fin 128)).ne_empty
  · exact h

/-- A scale is the largest magnitude over a nonzero real, or 1: real when the group is. -/
theorem scale_real {qE : Ideal .f32} (q : ℝ) (hq0 : q ≠ 0) (hq : qE = (q : EReal))
    (f : Fin 128 → Ideal .f32) (hf : ∀ j, ∃ a : ℝ, f j = (a : EReal)) : ∃ s : ℝ, scale qE f = (s : EReal) := by
  obtain ⟨m, hm⟩ := amax_real f hf
  unfold scale Scalar.select
  split
  · exact ⟨1, one_eq⟩
  · refine ⟨m * (1 / q), ?_⟩
    rw [hm, hq, Ideal.hostDivf_def, Ideal.div_coe hq0, EReal.coe_mul]

/-! ## The four factors of an entry -/

theorem qA_ne : (127 : ℝ) ≠ 0 := by norm_num
theorem qW_ne : (7 : ℝ) ≠ 0 := by norm_num

theorem xcode_real (X : SX.Idx → Ideal .f32) (r : Fin 8192) (g : Fin 32) (j : Fin 128) : ∃ c : ℝ, xcode X r g j = (c : EReal) :=
  code_real (-127) 127 nqA_eq qA_eq _ j
theorem wcode_real (W : SW.Idx → Ideal .f32) (o : Fin 4096) (g : Fin 32) (j : Fin 128) : ∃ c : ℝ, wcode W o g j = (c : EReal) :=
  code_real (-7) 7 nqW_eq qW_eq _ j
theorem xscale_real (X : SX.Idx → Ideal .f32) (hX : Finite X) (r : Fin 8192) (g : Fin 32) : ∃ s : ℝ, xscale X r g = (s : EReal) :=
  scale_real 127 qA_ne qA_eq _ fun _ => hX _
theorem wscale_real (W : SW.Idx → Ideal .f32) (hW : Finite W) (o : Fin 4096) (g : Fin 32) : ∃ s : ℝ, wscale W o g = (s : EReal) :=
  scale_real 7 qW_ne qW_eq _ fun _ => hW _

/-! ## The sum over the 4096 places is the sum over the groups of the sums inside the groups -/

/-- A place of the row, cut into its group and its place in the group; the inverse of `place`. -/
def cut : Fin 4096 ≃ Fin 32 × Fin 128 where
  toFun k := (⟨k.val / 128, by have := k.isLt; omega⟩, ⟨k.val % 128, Nat.mod_lt _ (by decide)⟩)
  invFun p := place p.1 p.2
  left_inv k := Fin.ext (by show k.val / 128 * 128 + k.val % 128 = k.val; omega)
  right_inv p := by
    obtain ⟨g, j⟩ := p
    have hg := g.isLt
    have hj := j.isLt
    refine Prod.ext (Fin.ext ?_) (Fin.ext ?_)
    · show (g.val * 128 + j.val) / 128 = g.val; omega
    · show (g.val * 128 + j.val) % 128 = j.val; omega

/-- In any commutative monoid: summing over the places k = 128·g + j is summing over g and then over j. -/
theorem sum_places {M : Type} [AddCommMonoid M] (F : Fin 32 → Fin 128 → M) :
    (∑ k : Fin 4096, F ⟨k.val / 128, by have := k.isLt; omega⟩ ⟨k.val % 128, Nat.mod_lt _ (by decide)⟩)
      = ∑ g : Fin 32, ∑ j : Fin 128, F g j := by
  rw [← Fintype.sum_prod_type']
  exact Fintype.sum_equiv cut _ _ fun k => rfl

/-- The coercion of the reals into the extended reals carries a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- One group, with real factors: the two scales, which do not depend on the place, leave the sum over the group. -/
theorem group_sum (a b : Fin 128 → ℝ) (s t : ℝ) :
    (∑ j : Fin 128, ((a j : EReal) * (s : EReal)) * ((b j : EReal) * (t : EReal)))
      = (∑ j : Fin 128, (a j : EReal) * (b j : EReal)) * ((s : EReal) * (t : EReal)) := by
  simp only [← EReal.coe_mul, ← coe_sum]
  rw [Finset.sum_mul]
  exact congrArg _ (Finset.sum_congr rfl fun j _ => by ring)

/-- The sums of the two forms agree at every row of the activations and row of the weights. -/
theorem sums_eq (X : SX.Idx → Ideal .f32) (W : SW.Idx → Ideal .f32) (hX : Finite X) (hW : Finite W)
    (r : Fin 8192) (o : Fin 4096) :
    (∑ k : Fin 4096,
      (xcode X r ⟨k.val / 128, by have := k.isLt; omega⟩ ⟨k.val % 128, Nat.mod_lt _ (by decide)⟩
        * xscale X r ⟨k.val / 128, by have := k.isLt; omega⟩)
      * (wcode W o ⟨k.val / 128, by have := k.isLt; omega⟩ ⟨k.val % 128, Nat.mod_lt _ (by decide)⟩
        * wscale W o ⟨k.val / 128, by have := k.isLt; omega⟩))
      = ∑ g : Fin 32, term X W r o g := by
  choose cx hcx using xcode_real X r
  choose cw hcw using wcode_real W o
  choose sx hsx using xscale_real X hX r
  choose sw hsw using wscale_real W hW o
  rw [sum_places fun g j => (xcode X r g j * xscale X r g) * (wcode W o g j * wscale W o g)]
  refine Finset.sum_congr rfl fun g _ => ?_
  unfold term
  simp only [hcx, hcw, hsx, hsw]
  exact group_sum _ _ _ _

/-- THE REGROUPING: on real arguments the placewise form of the layer is its grouped form. -/
theorem placewise_eq_result (X : SX.Idx → Ideal .f32) (W : SW.Idx → Ideal .f32) (B : SB.Idx → Ideal .f32)
    (hX : Finite X) (hW : Finite W) :
    Cert.QuantSpec.placewise X W B = Cert.QuantSpec.result X W B := by
  funext i
  exact congrArg (· + B (ix1 (i 2))) (sums_eq X W hX hW (rowOf (i 0) (i 1)) (i 2))

end Cert.QuantAlgebra
-- ==== Proof.Finiteness.lean ====
/-
  The precondition read back: every entry of the three arguments is a real number.

  The precondition is the conjunction, over the three arguments, of "every entry x has |x| < +∞".
  On the extended reals |x| = max x (-x), which is +∞ at both infinities; so an entry passing the
  test is neither of them, and is the coercion of a real.
-/
import proofs.«119646_j76888504533247_2_alg».proof.Proof.Spec
import proofs.«119646_j76888504533247_2_alg».proof.Pre_finite_inputs
import Idealize.ShloMosaic.Lib.ReduceAll
import Idealize.ShloMosaic.Lib.ValueIdx

namespace Cert.QuantFinite

open Idealize.ShloMosaic Idealize.ShloMosaic.ValueIdx

/-- The word 0x7F800000 denotes +∞. -/
theorem ofBits_posInf : Ideal.ofBits .f32 0x7F800000#32 = ⊤ := by
  simp [Ideal.ofBits, Ideal.ieee]

/-- An extended real whose magnitude max x (-x) is below +∞ is a real number. -/
theorem real_of_abs_lt_top (x : EReal) (h : max x (-x) < ⊤) : ∃ a : ℝ, x = (a : EReal) := by
  induction x using EReal.rec with
  | bot => simp at h
  | top => simp at h
  | coe a => exact ⟨a, rfl⟩

/-- The element test |x| < +∞, answered 1, says x is a real number. -/
theorem real_of_test (x : Ideal .f32)
    (h : FloatOps.cmpf (F := Ideal) .olt (FloatOps.hostAbsf x) (FloatOps.ofBits (F := Ideal) .f32 0x7F800000#32) = 1#1) :
    ∃ a : ℝ, x = (a : EReal) := by
  refine real_of_abs_lt_top x ?_
  have h' : Ideal.cmp .olt (max x (-x)) (Ideal.ofBits .f32 0x7F800000#32) = 1#1 := h
  rw [ofBits_posInf] at h'
  by_cases hlt : max x (-x) < ⊤
  · exact hlt
  · simp [Ideal.cmp, hlt] at h'

/-- The result of a reduction over every axis has one index. -/
instance : Subsingleton Cert.Pre_finite_inputs.S_.Idx := ⟨fun a b => funext fun d => d.elim0⟩

/-- One argument's conjunct: the `and` over every entry of the test |x| < +∞ is 1 only when every entry is a real. -/
theorem finite_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x) (broadcastInDim S ![] hb (constant (F := Ideal) Cert.Pre_finite_inputs.S_ .f32 0x7F800000#32)))
          (constantI Cert.Pre_finite_inputs.S_ 1 1#1) hr hu ix0 = 1#1) :
    Cert.QuantSpec.Finite x := by
  intro i
  have hi := Host.reduce_andi_all _ _ hr hu ix0 e i
  exact real_of_test (x i) hi

/-- THE PRECONDITION: each of the three arguments has only real entries. -/
theorem finite_of_pre [Cert.Pre_finite_inputs.Facts]
    (x0 : FVec Ideal Cert.Pre_finite_inputs.S4x2048x4096 .f32) (x1 : FVec Ideal Cert.Pre_finite_inputs.S4096x4096 .f32)
    (x2 : FVec Ideal Cert.Pre_finite_inputs.S4096 .f32)
    (h : Cert.Pre_finite_inputs.fn (F := Ideal) x0 x1 x2 = fun _ => 1#1) :
    Cert.QuantSpec.Finite x0 ∧ Cert.QuantSpec.Finite x1 ∧ Cert.QuantSpec.Finite x2 := by
  have h0 := congrFun h ix0
  unfold Cert.Pre_finite_inputs.fn at h0
  dsimp only at h0
  obtain ⟨h01, h2⟩ := IntOp.andi_eq_one.1 h0
  obtain ⟨h0', h1⟩ := IntOp.andi_eq_one.1 h01
  exact ⟨finite_of_all x0 _ _ _ h0', finite_of_all x1 _ _ _ h1, finite_of_all x2 _ _ _ h2⟩

end Cert.QuantFinite
-- ==== Proof.lean ====
/-
  A quantised linear layer: out = fakequant₈(x) · fakequant₄(w)ᵀ + bias over x[4, 2048, 4096], w[4096, 4096], bias[4096],
  both quantisations per group of 128 along the contracted axis (scale = max|·| / qmax, or 1 where that is 0;
  code = clamp(round(· / scale), −qmax, qmax)).

  The reference dequantises (code · scale) and contracts once over the 4096 places.  The kernel keeps the integer
  codes and the scales apart: a 4 × 4 × 4 grid of [2048, 1024] output tiles times four reduction steps of 1024
  places; at each step it adds, for each of the step's eight groups, the groups' integer dot product times the two
  groups' scales, and at the last step adds the bias.  Over the extended reals the two agree because
      Σ_places (cx · sx)(cw · sw)  =  Σ_groups (Σ_lanes cx · cw) · (sx · sw),
  which is commutativity and associativity of the product and distributivity over each group's sum — the last
  needs every factor finite: the codes are clamped to [−qmax, qmax] whatever is rounded, and the scales are finite
  because the inputs are (the precondition).  Sums are re-associated freely: addition of extended reals is
  commutative and associative.

  The modules: Spec (the mathematics, stated once), RefSide / RefRun (the reference ends at the placewise form),
  Algebra / Finiteness (placewise = grouped under finite inputs), KernelHost (the quantisation prepass of the
  kernel program read at an entry), Payloads / Pieces / StepValue (one grid point's update of the accumulator),
  BlockReads / PointTerms (a point's tiles are the staged arrays at the point's rows, columns and places),
  GridValue (the accumulator across the grid, by induction on the point), OutArray / KernelRun (the tiles cover the
  output array; the final reshape), and here the five claims.
-/
import proofs.«119646_j76888504533247_2_alg».proof.Defs
import proofs.«119646_j76888504533247_2_alg».proof.Proof.Gen.Kernel
import proofs.«119646_j76888504533247_2_alg».proof.Proof.Gen.Kernel.Skeleton
import proofs.«119646_j76888504533247_2_alg».proof.Proof.Gen.Kernel.Launch
import proofs.«119646_j76888504533247_2_alg».proof.Proof.Gen.Kernel.Points
import proofs.«119646_j76888504533247_2_alg».proof.Proof.Gen.Kernel.Frame
import proofs.«119646_j76888504533247_2_alg».proof.Proof.Gen.KernelIdeal
import proofs.«119646_j76888504533247_2_alg».proof.Proof.Gen.KernelIdeal.Skeleton
import proofs.«119646_j76888504533247_2_alg».proof.Proof.Gen.KernelIdeal.Launch
import proofs.«119646_j76888504533247_2_alg».proof.Proof.Gen.KernelIdeal.Points
import proofs.«119646_j76888504533247_2_alg».proof.Proof.Gen.KernelIdeal.Frame
import proofs.«119646_j76888504533247_2_alg».proof.Proof.Gen.ReferenceIdeal
import proofs.«119646_j76888504533247_2_alg».proof.Proof.Gen.ReferenceIdeal.Run
import proofs.«119646_j76888504533247_2_alg».proof.Proof.Gen.ReferenceIdeal.Read
import proofs.«119646_j76888504533247_2_alg».proof.Proof.Gen.Pre_finite_inputs
import proofs.«119646_j76888504533247_2_alg».proof.Proof.KernelRun
import proofs.«119646_j76888504533247_2_alg».proof.Proof.RefRun
import proofs.«119646_j76888504533247_2_alg».proof.Proof.Algebra
import proofs.«119646_j76888504533247_2_alg».proof.Proof.Finiteness
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- From memories agreeing on the three arguments, all finite, both programs end with the same result: the kernel
    at the grouped form of the layer, the reference at the placewise form, and the two forms are one function of
    finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c : Dev Cert.KernelIdeal.nD => Cert.QuantSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨?_, (h c).2⟩) (Cert.RefRun.ref_run m' ρ')
  obtain ⟨hX, hW, -⟩ := Cert.QuantFinite.finite_of_pre _ _ _ (hpre c)
  rw [(h c).1, (hagree c).1, (hagree c).2.1, (hagree c).2.2]
  exact Cert.QuantAlgebra.placewise_eq_result _ _ _ hX hW

theorem claim : Cert.Claim :=
  ⟨Cert.Kernel.Gen.facts, Cert.KernelIdeal.Gen.facts, Cert.ReferenceIdeal.Gen.facts, Cert.Pre_finite_inputs.Gen.facts,
    frame_k, frame_ki, Cert.RefRun.frame_ri, trivial, algebraic⟩

end Cert.Proof

end
